-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S128x64 .f32) (main_arg3 : FVec F S64 .f32) (main_arg4 : FVec F S64x2 .f32) (main_arg5 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S5000x64 : Shape := ⟨2, ![5000, 64]⟩
abbrev S64x64 : Shape := ⟨2, ![64, 64]⟩
abbrev S5000x1 : Shape := ⟨2, ![5000, 1]⟩
abbrev S1600000x64 : Shape := ⟨2, ![1600000, 64]⟩
abbrev S100000x2 : Shape := ⟨2, ![100000, 2]⟩
abbrev S5000x2 : Shape := ⟨2, ![5000, 2]⟩
abbrev S1600000x2 : Shape := ⟨2, ![1600000, 2]⟩
abbrev S1x2 : Shape := ⟨2, ![1, 2]⟩

abbrev nBuf : Space → Nat
  | .hbm => 67
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x64, .f32⟩
  | .hbm, ⟨29, _⟩ => ⟨S_, .f32⟩
  | .hbm, ⟨30, _⟩ => ⟨S1x64, .f32⟩
  | .hbm, ⟨31, _⟩ => ⟨S1x64, .f32⟩
  | .hbm, ⟨32, _⟩ => ⟨S64x64, .f32⟩
  | .hbm, ⟨33, _⟩ => ⟨S64x64, .f32⟩
  | .hbm, ⟨34, _⟩ => ⟨S1x64, .f32⟩
  | .hbm, ⟨35, _⟩ => ⟨S100000x64, .bf16⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .bf16⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x64, .f32⟩
  | .hbm, ⟨51, _⟩ => ⟨S100000x2, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x2, .f32⟩
  | .hbm, ⟨61, _⟩ => ⟨S_, .f32⟩
  | .hbm, ⟨62, _⟩ => ⟨S100000x2, .f32⟩
  | .hbm, ⟨63, _⟩ => ⟨S1600000x1, .i32⟩
  | .hbm, ⟨64, _⟩ => ⟨S100000x2, .f32⟩
  | .hbm, ⟨65, _⟩ => ⟨S1x2, .f32⟩
  | .hbm, ⟨66, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S1x64, .f32⟩
  | .local _ .vmem, ⟨3, _⟩ => ⟨S5000x64, .f32⟩
  | .local _ .vmem, ⟨4, _⟩ => ⟨S5000x64, .f32⟩
  | .local _ .vmem, ⟨5, _⟩ => ⟨S64x64, .f32⟩
  | .local _ .vmem, ⟨6, _⟩ => ⟨S1x64, .f32⟩
  | .local _ .vmem, ⟨7, _⟩ => ⟨S5000x1, .f32⟩
  | .local _ .vmem, ⟨8, _⟩ => ⟨S5000x1, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S1x64, .f32⟩
  | .local _ .vmem, ⟨16, _⟩ => ⟨S64x2, .f32⟩
  | .local _ .vmem, ⟨17, _⟩ => ⟨S5000x2, .f32⟩
  | .local _ .vmem, ⟨18, _⟩ => ⟨S5000x2, .f32⟩
  | .local _ .vmem, ⟨19, _⟩ => ⟨S5000x2, .f32⟩
  | .local _ .vmem, ⟨20, _⟩ => ⟨S5000x2, .f32⟩
  | .local _ .vmem, ⟨21, _⟩ => ⟨S5000x1, .f32⟩
  | .local _ .vmem, ⟨22, _⟩ => ⟨S5000x1, .f32⟩
  | .local _ .vmem, ⟨23, _⟩ => ⟨S1x2, .f32⟩
  | .local _ .vmem, ⟨24, _⟩ => ⟨S5000x2, .f32⟩
  | .local _ .vmem, ⟨25, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  shapeCasts_S64_S1x64 : S64.ShapeCasts S1x64
  bcast_S_S1x64 : S_.BroadcastsInDim S1x64 (![] : Fin 0 → Fin S1x64.rank)
  slices_S128x64_S64x64_0_0 : S128x64.Slices ![0, 0] S64x64
  slices_S128x64_S64x64_64_0 : S128x64.Slices ![64, 0] S64x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S5000x64_S5000x64 : S5000x64.ShapeCasts S5000x64
  inb_S64x2_S64x2_0_0 : ∀ a, (![0, 0] : Fin 2 → Nat) a + S64x2.size a ≤ S64x2.size a
  h_S64x2 : 0 < S64x2.numel
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S100000_S1600000x1_S1600000_n_0_0_1_wf : ScatterDims.WF S100000 S1600000x1 S1600000 [] [0] [0] 1
  dot_S1x64_S64x64_S1x64_1_0_0_1_n_n_wf : DotDims.WF S1x64 S64x64 S1x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x2_S5000x2_1_0_0_1_n_n_wf : DotDims.WF S5000x64 S64x2 S5000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x2.size a ≤ S100000x2.size a
  hwx2_4 : ∀ i : grid2.Coords, EltTy.bits .f32 = 32 ∨ (Rect.block (s := S100000x2) S5000x2.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x2.size a ≤ S100000x2.size a
  hwx3_3 : ∀ i : grid3.Coords, EltTy.bits .f32 = 32 ∨ (Rect.block (s := S100000x2) S5000x2.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x64.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v32) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S5000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v44) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S5000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1x64 : Shape := ⟨2, ![1, 64]⟩
abbrev S100000x128 : Shape := ⟨2, ![100000, 128]⟩
abbrev S100000 : Shape := ⟨1, ![100000]⟩
abbrev S1600000x1 : Shape := ⟨2, ![1600000, 1]⟩
abbrev S1600000x64 : Shape := ⟨2, ![1600000, 64]⟩
abbrev S100000x2 : Shape := ⟨2, ![100000, 2]⟩
abbrev S1600000x2 : Shape := ⟨2, ![1600000, 2]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S100000x64, .f32⟩
  | 1 => ⟨S2x1600000, .i32⟩
  | 2 => ⟨S128x64, .f32⟩
  | 3 => ⟨S64, .f32⟩
  | 4 => ⟨S64x2, .f32⟩
  | 5 => ⟨S2, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S64, .f32⟩
  | 12 => ⟨S1x64, .f32⟩
  | 13 => ⟨S_, .f32⟩
  | 14 => ⟨S1x64, .f32⟩
  | 15 => ⟨S1x64, .f32⟩
  | 16 => ⟨S100000x64, .f32⟩
  | 17 => ⟨S100000x128, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x64, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S1600000x1, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S100000, .f32⟩
  | 90 => ⟨S_, .f32⟩
  | 91 => ⟨S_, .f32⟩
  | 92 => ⟨S100000, .f32⟩
  | 93 => ⟨S100000, .f32⟩
  | 94 => ⟨S100000x2, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x2, .f32⟩
  | 123 => ⟨S1600000x1, .f32⟩
  | 124 => ⟨S1600000x2, .f32⟩
  | 125 => ⟨S1600000x2, .f32⟩
  | 126 => ⟨S_, .f32⟩
  | 127 => ⟨S100000x2, .f32⟩
  | _ => ⟨S100000x64, .f32⟩

abbrev hbmTy0_1 (i : Nat) : BufTy := match i % 128 with
  | 0 => ⟨S1600000x1, .i32⟩
  | 1 => ⟨S100000x2, .f32⟩
  | 2 => ⟨S1x2, .f32⟩
  | 3 => ⟨S100000x2, .f32⟩
  | 4 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_cst : Ref sig .tc := ⟨.hbm, 74, rfl⟩
abbrev main_call1_v0 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_v63 : Ref sig .tc := ⟨.hbm, 94, rfl⟩
abbrev main_c_17 : Ref sig .tc := ⟨.hbm, 95, rfl⟩
abbrev main_v64 : Ref sig .tc := ⟨.hbm, 96, rfl⟩
abbrev main_v65 : Ref sig .tc := ⟨.hbm, 97, rfl⟩
abbrev main_c_18 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_19 : Ref sig .tc := ⟨.hbm, 104, rfl⟩
abbrev main_v71 : Ref sig .tc := ⟨.hbm, 105, rfl⟩
abbrev main_v72 : Ref sig .tc := ⟨.hbm, 106, rfl⟩
abbrev main_c_20 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_21 : Ref sig .tc := ⟨.hbm, 114, rfl⟩
abbrev main_v79 : Ref sig .tc := ⟨.hbm, 115, rfl⟩
abbrev main_v80 : Ref sig .tc := ⟨.hbm, 116, rfl⟩
abbrev main_c_22 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_23 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x2_S100000x2_1_0_0_1_n_n_wf : DotDims.WF S100000x64 S64x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

class Facts : Prop extends Facts₀ where

variable [Facts]
-- ==== Proof.KernelRun.lean ====
/-
  The idealized kernel program's run with its result named: every weakly fair execution of @main terminates, nothing
  faulting, with the result buffer at what the last region's write-backs leave (the last boundary's contents) and the
  argument arrays as launched.  @main is ten segments: host stretches and the four regions in turn; the contents at each
  boundary are a fold from the launch memory, and the run leaves every unscoped buffer at the last boundary's contents.
-/
import proofs.«139473_j72146860638719_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v46) = W10 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v46 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.KRun

end
-- ==== Proof.KernelBack.lean ====
/-
  Buffers of the idealized kernel program that are written once and read later.  @main's buffers at each boundary between
  its segments are a fold from the launch memory; a host stretch changes only the buffers its operations write, and a region
  only its output arrays.  So a buffer read several segments after it was written holds, at the later boundary, what it
  held at the earlier one: one step per segment crossed.
-/
import proofs.«139473_j72146860638719_2_alg».proof.Proof.Gen.KernelIdeal.Frame
import Idealize.ShloMosaic.Lib.StableHlo.Run

set_option maxRecDepth 16384

noncomputable section

namespace Cert.KernelIdeal.Back

open Cert.KernelIdeal Cert.KernelIdeal.Gen
open Idealize.ShloMosaic Idealize.ShloMosaic.TcCoe Idealize.SL.Sem
open Idealize.ShloMosaic.Pipeline (Dat)

/-- No operation of the named host stretch writes the buffer in the goal, so the stretch leaves it as it was. -/
macro "skip_stretch" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg) (c : Dev nD)

/-! ### `main_v14` is not written between boundary 3 and boundary 9 -/

theorem main_v14_9_8 : W9 m ρ c (Proc.devRef .tc main_v14) = W8 m ρ c (Proc.devRef .tc main_v14) := by
  skip_stretch hostOps3
theorem main_v14_8_7 : W8 m ρ c (Proc.devRef .tc main_v14) = W7 m ρ c (Proc.devRef .tc main_v14) :=
  (W8_arr m ρ c 1).trans (((dat2 (V7 m ρ) c).arrAt_in 1 rfl _).trans (A_eq2 (V7 m ρ) c 1))
theorem main_v14_7_6 : W7 m ρ c (Proc.devRef .tc main_v14) = W6 m ρ c (Proc.devRef .tc main_v14) := by
  skip_stretch hostOps2
theorem main_v14_6_5 : W6 m ρ c (Proc.devRef .tc main_v14) = W5 m ρ c (Proc.devRef .tc main_v14) :=
  (W6_arr m ρ c 3).trans (((dat1 (V5 m ρ) c).arrAt_in 3 rfl _).trans (A_eq1 (V5 m ρ) c 3))
theorem main_v14_5_4 : W5 m ρ c (Proc.devRef .tc main_v14) = W4 m ρ c (Proc.devRef .tc main_v14) := by
  skip_stretch hostOps1
theorem main_v14_4_3 : W4 m ρ c (Proc.devRef .tc main_v14) = W3 m ρ c (Proc.devRef .tc main_v14) :=
  W4_of_ne m ρ c main_v14 (by decide)

/-! ### `main_v1` is not written between boundary 1 and boundary 8 -/

theorem main_v1_8_7 : W8 m ρ c (Proc.devRef .tc main_v1) = W7 m ρ c (Proc.devRef .tc main_v1) :=
  W8_of_ne m ρ c main_v1 (by decide)
theorem main_v1_7_6 : W7 m ρ c (Proc.devRef .tc main_v1) = W6 m ρ c (Proc.devRef .tc main_v1) := by
  skip_stretch hostOps2
theorem main_v1_6_5 : W6 m ρ c (Proc.devRef .tc main_v1) = W5 m ρ c (Proc.devRef .tc main_v1) :=
  W6_of_ne m ρ c main_v1 (by decide)
theorem main_v1_5_4 : W5 m ρ c (Proc.devRef .tc main_v1) = W4 m ρ c (Proc.devRef .tc main_v1) := by
  skip_stretch hostOps1
theorem main_v1_4_3 : W4 m ρ c (Proc.devRef .tc main_v1) = W3 m ρ c (Proc.devRef .tc main_v1) :=
  W4_of_ne m ρ c main_v1 (by decide)
theorem main_v1_3_2 : W3 m ρ c (Proc.devRef .tc main_v1) = W2 m ρ c (Proc.devRef .tc main_v1) := by
  skip_stretch hostOps0_2
theorem main_v1_2_1 : W2 m ρ c (Proc.devRef .tc main_v1) = W1 m ρ c (Proc.devRef .tc main_v1) := by
  skip_stretch hostOps0_1

/-! ### `main_v3` is not written between boundary 1 and boundary 8 -/

theorem main_v3_8_7 : W8 m ρ c (Proc.devRef .tc main_v3) = W7 m ρ c (Proc.devRef .tc main_v3) :=
  W8_of_ne m ρ c main_v3 (by decide)
theorem main_v3_7_6 : W7 m ρ c (Proc.devRef .tc main_v3) = W6 m ρ c (Proc.devRef .tc main_v3) := by
  skip_stretch hostOps2
theorem main_v3_6_5 : W6 m ρ c (Proc.devRef .tc main_v3) = W5 m ρ c (Proc.devRef .tc main_v3) :=
  W6_of_ne m ρ c main_v3 (by decide)
theorem main_v3_5_4 : W5 m ρ c (Proc.devRef .tc main_v3) = W4 m ρ c (Proc.devRef .tc main_v3) := by
  skip_stretch hostOps1
theorem main_v3_4_3 : W4 m ρ c (Proc.devRef .tc main_v3) = W3 m ρ c (Proc.devRef .tc main_v3) :=
  W4_of_ne m ρ c main_v3 (by decide)
theorem main_v3_3_2 : W3 m ρ c (Proc.devRef .tc main_v3) = W2 m ρ c (Proc.devRef .tc main_v3) := by
  skip_stretch hostOps0_2
theorem main_v3_2_1 : W2 m ρ c (Proc.devRef .tc main_v3) = W1 m ρ c (Proc.devRef .tc main_v3) := by
  skip_stretch hostOps0_1

/-! ### `main_arg0` is not written between boundary 0 and boundary 5 -/

theorem main_arg0_5_4 : W5 m ρ c (Proc.devRef .tc main_arg0) = W4 m ρ c (Proc.devRef .tc main_arg0) := by
  skip_stretch hostOps1
theorem main_arg0_4_3 : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))
theorem main_arg0_3_2 : W3 m ρ c (Proc.devRef .tc main_arg0) = W2 m ρ c (Proc.devRef .tc main_arg0) := by
  skip_stretch hostOps0_2
theorem main_arg0_2_1 : W2 m ρ c (Proc.devRef .tc main_arg0) = W1 m ρ c (Proc.devRef .tc main_arg0) := by
  skip_stretch hostOps0_1
theorem main_arg0_1_0 : W1 m ρ c (Proc.devRef .tc main_arg0) = W0 m ρ c (Proc.devRef .tc main_arg0) := by
  skip_stretch hostOps0

/-! ### `main_arg2` is not written between boundary 0 and boundary 4 -/

theorem main_arg2_4_3 : W4 m ρ c (Proc.devRef .tc main_arg2) = W3 m ρ c (Proc.devRef .tc main_arg2) :=
  W4_of_ne m ρ c main_arg2 (by decide)
theorem main_arg2_3_2 : W3 m ρ c (Proc.devRef .tc main_arg2) = W2 m ρ c (Proc.devRef .tc main_arg2) := by
  skip_stretch hostOps0_2
theorem main_arg2_2_1 : W2 m ρ c (Proc.devRef .tc main_arg2) = W1 m ρ c (Proc.devRef .tc main_arg2) := by
  skip_stretch hostOps0_1
theorem main_arg2_1_0 : W1 m ρ c (Proc.devRef .tc main_arg2) = W0 m ρ c (Proc.devRef .tc main_arg2) := by
  skip_stretch hostOps0

/-! ### `main_arg3` is not written between boundary 0 and boundary 6 -/

theorem main_arg3_6_5 : W6 m ρ c (Proc.devRef .tc main_arg3) = W5 m ρ c (Proc.devRef .tc main_arg3) :=
  W6_of_ne m ρ c main_arg3 (by decide)
theorem main_arg3_5_4 : W5 m ρ c (Proc.devRef .tc main_arg3) = W4 m ρ c (Proc.devRef .tc main_arg3) := by
  skip_stretch hostOps1
theorem main_arg3_4_3 : W4 m ρ c (Proc.devRef .tc main_arg3) = W3 m ρ c (Proc.devRef .tc main_arg3) :=
  W4_of_ne m ρ c main_arg3 (by decide)
theorem main_arg3_3_2 : W3 m ρ c (Proc.devRef .tc main_arg3) = W2 m ρ c (Proc.devRef .tc main_arg3) := by
  skip_stretch hostOps0_2
theorem main_arg3_2_1 : W2 m ρ c (Proc.devRef .tc main_arg3) = W1 m ρ c (Proc.devRef .tc main_arg3) := by
  skip_stretch hostOps0_1
theorem main_arg3_1_0 : W1 m ρ c (Proc.devRef .tc main_arg3) = W0 m ρ c (Proc.devRef .tc main_arg3) := by
  skip_stretch hostOps0

/-! ### `main_arg4` is not written between boundary 0 and boundary 7 -/

theorem main_arg4_7_6 : W7 m ρ c (Proc.devRef .tc main_arg4) = W6 m ρ c (Proc.devRef .tc main_arg4) := by
  skip_stretch hostOps2
theorem main_arg4_6_5 : W6 m ρ c (Proc.devRef .tc main_arg4) = W5 m ρ c (Proc.devRef .tc main_arg4) :=
  W6_of_ne m ρ c main_arg4 (by decide)
theorem main_arg4_5_4 : W5 m ρ c (Proc.devRef .tc main_arg4) = W4 m ρ c (Proc.devRef .tc main_arg4) := by
  skip_stretch hostOps1
theorem main_arg4_4_3 : W4 m ρ c (Proc.devRef .tc main_arg4) = W3 m ρ c (Proc.devRef .tc main_arg4) :=
  W4_of_ne m ρ c main_arg4 (by decide)
theorem main_arg4_3_2 : W3 m ρ c (Proc.devRef .tc main_arg4) = W2 m ρ c (Proc.devRef .tc main_arg4) := by
  skip_stretch hostOps0_2
theorem main_arg4_2_1 : W2 m ρ c (Proc.devRef .tc main_arg4) = W1 m ρ c (Proc.devRef .tc main_arg4) := by
  skip_stretch hostOps0_1
theorem main_arg4_1_0 : W1 m ρ c (Proc.devRef .tc main_arg4) = W0 m ρ c (Proc.devRef .tc main_arg4) := by
  skip_stretch hostOps0

/-! ### `main_arg5` is not written between boundary 0 and boundary 8 -/

theorem main_arg5_8_7 : W8 m ρ c (Proc.devRef .tc main_arg5) = W7 m ρ c (Proc.devRef .tc main_arg5) :=
  W8_of_ne m ρ c main_arg5 (by decide)
theorem main_arg5_7_6 : W7 m ρ c (Proc.devRef .tc main_arg5) = W6 m ρ c (Proc.devRef .tc main_arg5) := by
  skip_stretch hostOps2
theorem main_arg5_6_5 : W6 m ρ c (Proc.devRef .tc main_arg5) = W5 m ρ c (Proc.devRef .tc main_arg5) :=
  W6_of_ne m ρ c main_arg5 (by decide)
theorem main_arg5_5_4 : W5 m ρ c (Proc.devRef .tc main_arg5) = W4 m ρ c (Proc.devRef .tc main_arg5) := by
  skip_stretch hostOps1
theorem main_arg5_4_3 : W4 m ρ c (Proc.devRef .tc main_arg5) = W3 m ρ c (Proc.devRef .tc main_arg5) :=
  W4_of_ne m ρ c main_arg5 (by decide)
theorem main_arg5_3_2 : W3 m ρ c (Proc.devRef .tc main_arg5) = W2 m ρ c (Proc.devRef .tc main_arg5) := by
  skip_stretch hostOps0_2
theorem main_arg5_2_1 : W2 m ρ c (Proc.devRef .tc main_arg5) = W1 m ρ c (Proc.devRef .tc main_arg5) := by
  skip_stretch hostOps0_1
theorem main_arg5_1_0 : W1 m ρ c (Proc.devRef .tc main_arg5) = W0 m ρ c (Proc.devRef .tc main_arg5) := by
  skip_stretch hostOps0

end Cert.KernelIdeal.Back

end
-- ==== Proof.KSpec.lean ====
/-
  What each of the four kernels leaves in its output array, as one function of its argument arrays, entry by entry,
  over the extended reals.  Rows are the 100000 nodes; a block is 5000 consecutive rows.
-/
import Idealize.ShloMosaic.PureOps.Ideal
import Idealize.ShloMosaic.Lib.ValueIdx

noncomputable section

open Idealize.ShloMosaic Idealize.ShloMosaic.ValueIdx
open scoped BigOperators

namespace Cert.KSpec

/-- The column sums of the node features: entry `(0, q)` is the sum over all rows `r` of `x (r, q)`. -/
def g0 (x : FVec Ideal ⟨2, ![100000, 64]⟩ .f32) (q : Fin 64) : EReal := ∑ r : Fin 100000, x (ix2 r q)

def G0 (x : FVec Ideal ⟨2, ![100000, 64]⟩ .f32) : FVec Ideal ⟨2, ![1, 64]⟩ .f32 :=
  fun i => g0 x (i 1)

/-- The first linear layer, scaled row by row: `(x · wa + brow) (r, q) · dis (r)`. -/
def g1 (x : FVec Ideal ⟨2, ![100000, 64]⟩ .f32) (wa : FVec Ideal ⟨2, ![64, 64]⟩ .f32)
    (brow : FVec Ideal ⟨2, ![1, 64]⟩ .f32) (dis : FVec Ideal ⟨2, ![100000, 1]⟩ .f32) (r : Fin 100000) (q : Fin 64) : EReal :=
  (∑ k : Fin 64, x (ix2 r k) * wa (ix2 k q) + brow (ix2 (0 : Fin 1) q)) * dis (ix2 r (0 : Fin 1))

def G1 (x : FVec Ideal ⟨2, ![100000, 64]⟩ .f32) (wa : FVec Ideal ⟨2, ![64, 64]⟩ .f32)
    (brow : FVec Ideal ⟨2, ![1, 64]⟩ .f32) (dis : FVec Ideal ⟨2, ![100000, 1]⟩ .f32) : FVec Ideal ⟨2, ![100000, 64]⟩ .bf16 :=
  fun i => g1 x wa brow dis (i 0) (i 1)

/-- The rectified hidden row, `max (dis (r) · s (r, k) + b (k)) 0`. -/
def hid (s : FVec Ideal ⟨2, ![100000, 64]⟩ .f32) (dis : FVec Ideal ⟨2, ![100000, 1]⟩ .f32)
    (b : FVec Ideal ⟨2, ![1, 64]⟩ .f32) (r : Fin 100000) (k : Fin 64) : EReal :=
  max (dis (ix2 r (0 : Fin 1)) * s (ix2 r k) + b (ix2 (0 : Fin 1) k)) 0

/-- The second linear layer of the rectified hidden rows, scaled row by row. -/
def g2 (s : FVec Ideal ⟨2, ![100000, 64]⟩ .f32) (dis : FVec Ideal ⟨2, ![100000, 1]⟩ .f32)
    (b : FVec Ideal ⟨2, ![1, 64]⟩ .f32) (w : FVec Ideal ⟨2, ![64, 2]⟩ .f32) (r : Fin 100000) (q : Fin 2) : EReal :=
  (∑ k : Fin 64, hid s dis b r k * w (ix2 k q)) * dis (ix2 r (0 : Fin 1))

def G2 (s : FVec Ideal ⟨2, ![100000, 64]⟩ .f32) (dis : FVec Ideal ⟨2, ![100000, 1]⟩ .f32)
    (b : FVec Ideal ⟨2, ![1, 64]⟩ .f32) (w : FVec Ideal ⟨2, ![64, 2]⟩ .f32) : FVec Ideal ⟨2, ![100000, 2]⟩ .f32 :=
  fun i => g2 s dis b w (i 0) (i 1)

/-- The last scaling and bias: `dis (r) · s (r, q) + b (q)`. -/
def g3 (s : FVec Ideal ⟨2, ![100000, 2]⟩ .f32) (dis : FVec Ideal ⟨2, ![100000, 1]⟩ .f32)
    (b : FVec Ideal ⟨2, ![1, 2]⟩ .f32) (r : Fin 100000) (q : Fin 2) : EReal :=
  dis (ix2 r (0 : Fin 1)) * s (ix2 r q) + b (ix2 (0 : Fin 1) q)

def G3 (s : FVec Ideal ⟨2, ![100000, 2]⟩ .f32) (dis : FVec Ideal ⟨2, ![100000, 1]⟩ .f32)
    (b : FVec Ideal ⟨2, ![1, 2]⟩ .f32) : FVec Ideal ⟨2, ![100000, 2]⟩ .f32 :=
  fun i => g3 s dis b (i 0) (i 1)

end Cert.KSpec

end
-- ==== Proof.KernelTerms.lean ====
/-
  The idealized kernel program's intermediate arrays as pure terms of the argument arrays.  The host computes the two
  index vectors, the degree scale and its column; region 0 leaves the column sums; the host the mean row, the two halves
  of the first weights and the row `mean · lower half`; region 1 the scaled first layer; the host gathers its rows by
  source and adds them up by destination; region 2 rectifies, applies the second layer and scales; the host gathers and
  adds up again; region 3 scales and adds the last bias.
-/
import proofs.«139473_j72146860638719_2_alg».proof.Proof.Gen.KernelIdeal
import proofs.«139473_j72146860638719_2_alg».proof.Proof.KSpec
import Idealize.ShloMosaic.PureOps.Ideal

set_option maxRecDepth 16384

noncomputable section

namespace Cert.KernelIdeal.Terms

open Cert.KernelIdeal Cert.KernelIdeal.Gen
open Idealize.ShloMosaic Idealize.ShloMosaic.TcCoe Idealize.SL.Sem Idealize.ShloMosaic.StableHlo

/-! ## The pure terms -/

/-- The source index of every edge: row 0 of the edge list. -/
def srcOf (a1 : IVec S2x1600000 32) : IVec S1600000 32 :=
  shapeCast S1600000 (extractStridedSlice S1x1600000 ![0, 0] a1 slices_S2x1600000_S1x1600000_0_0) shapeCasts_S1x1600000_S1600000
/-- The destination index of every edge: row 1 of the edge list. -/
def dstOf (a1 : IVec S2x1600000 32) : IVec S1600000 32 :=
  shapeCast S1600000 (extractStridedSlice S1x1600000 ![1, 0] a1 slices_S2x1600000_S1x1600000_1_0) shapeCasts_S1x1600000_S1600000
/-- An index vector as the column a gather takes: a negative index moved up by the number of nodes first. -/
def gatherCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- An index vector as the column a scatter-add takes. -/
def scatterCol (s : IVec S1600000 32) : IVec S1600000x1 32 :=
  broadcastInDim S1600000x1 ![0] bcast_S1600000_S1600000x1_0 s
/-- The in-degree of every node: ones added up by destination. -/
def degOf (a1 : IVec S2x1600000 32) : FVec Ideal S100000 .f32 :=
  Host.scatterAdd scatter_S100000_S1600000x1_S1600000_n_0_0_1
    (broadcastInDim S100000 ![] bcast_S_S100000 (constant (F := Ideal) S_ .f32 0x00000000#32)) (scatterCol (dstOf a1))
    (broadcastInDim S1600000 ![] bcast_S_S1600000 (constant (F := Ideal) S_ .f32 0x3F800000#32))
/-- The degree scale: `1 / sqrt (max deg 1)` where the degree is positive, zero elsewhere. -/
def disOf (a1 : IVec S2x1600000 32) : FVec Ideal S100000 .f32 :=
  select (cmpf .ogt (degOf a1) (broadcastInDim S100000 ![] bcast_S_S100000 (constant (F := Ideal) S_ .f32 0x00000000#32)))
    (Host.rsqrt (maximumf (degOf a1) (broadcastInDim S100000 ![] bcast_S_S100000 (constant (F := Ideal) S_ .f32 0x3F800000#32))))
    (broadcastInDim S100000 ![] bcast_S_S100000 (id (constant (F := Ideal) S_ .f32 0x00000000#32)))
/-- The degree scale as a column. -/
def dis2Of (a1 : IVec S2x1600000 32) : FVec Ideal S100000x1 .f32 :=
  shapeCast S100000x1 (disOf a1) shapeCasts_S100000_S100000x1
/-- The mean row of the features. -/
def meanOf (a0 : FVec Ideal S100000x64 .f32) : FVec Ideal S1x64 .f32 :=
  Host.divf (Cert.KSpec.G0 a0) (broadcastInDim S1x64 ![] bcast_S_S1x64 (constant (F := Ideal) S_ .f32 0x47C35000#32))
/-- The upper half of the first weights. -/
def waOf (a2 : FVec Ideal S128x64 .f32) : FVec Ideal S64x64 .f32 :=
  extractStridedSlice S64x64 ![0, 0] a2 slices_S128x64_S64x64_0_0
/-- The lower half of the first weights. -/
def wbOf (a2 : FVec Ideal S128x64 .f32) : FVec Ideal S64x64 .f32 :=
  extractStridedSlice S64x64 ![64, 0] a2 slices_S128x64_S64x64_64_0
/-- The row `mean · lower half`. -/
def browOf (a0 : FVec Ideal S100000x64 .f32) (a2 : FVec Ideal S128x64 .f32) : FVec Ideal S1x64 .f32 :=
  Host.dotGeneral (F := Ideal) dot_S1x64_S64x64_S1x64_1_0_0_1_n_n none (meanOf a0) (wbOf a2)
/-- The scaled first layer. -/
def h1pOf (a0 : FVec Ideal S100000x64 .f32) (a1 : IVec S2x1600000 32) (a2 : FVec Ideal S128x64 .f32) : FVec Ideal S100000x64 .bf16 :=
  Cert.KSpec.G1 a0 (waOf a2) (browOf a0 a2) (dis2Of a1)
/-- Its rows gathered by source and added up by destination. -/
def sum1Of (a0 : FVec Ideal S100000x64 .f32) (a1 : IVec S2x1600000 32) (a2 : FVec Ideal S128x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32)) (scatterCol (dstOf a1))
    (extf .f32 (Host.gather gather_S100000x64_S1600000x1_S1600000x64_1_0_n_n_0_1_164 (h1pOf a0 a1 a2) (gatherCol (srcOf a1))) bitsLt_bf16_f32)
/-- The first bias as a row. -/
def b1rowOf (a3 : FVec Ideal S64 .f32) : FVec Ideal S1x64 .f32 := shapeCast S1x64 a3 shapeCasts_S64_S1x64
/-- The scaled second layer. -/
def h2pOf (a0 : FVec Ideal S100000x64 .f32) (a1 : IVec S2x1600000 32) (a2 : FVec Ideal S128x64 .f32) (a3 : FVec Ideal S64 .f32)
    (a4 : FVec Ideal S64x2 .f32) : FVec Ideal S100000x2 .f32 :=
  Cert.KSpec.G2 (sum1Of a0 a1 a2) (dis2Of a1) (b1rowOf a3) a4
/-- Its rows gathered by source and added up by destination. -/
def sum2Of (a0 : FVec Ideal S100000x64 .f32) (a1 : IVec S2x1600000 32) (a2 : FVec Ideal S128x64 .f32) (a3 : FVec Ideal S64 .f32)
    (a4 : FVec Ideal S64x2 .f32) : FVec Ideal S100000x2 .f32 :=
  Host.scatterAdd scatter_S100000x2_S1600000x1_S1600000x2_1_0_0_1
    (broadcastInDim S100000x2 ![] bcast_S_S100000x2 (constant (F := Ideal) S_ .f32 0x00000000#32)) (scatterCol (dstOf a1))
    (Host.gather gather_S100000x2_S1600000x1_S1600000x2_1_0_n_n_0_1_12 (h2pOf a0 a1 a2 a3 a4) (gatherCol (srcOf a1)))
/-- The second bias as a row. -/
def b2rowOf (a5 : FVec Ideal S2 .f32) : FVec Ideal S1x2 .f32 := shapeCast S1x2 a5 shapeCasts_S2_S1x2
/-- The program's result. -/
def outOf (a0 : FVec Ideal S100000x64 .f32) (a1 : IVec S2x1600000 32) (a2 : FVec Ideal S128x64 .f32) (a3 : FVec Ideal S64 .f32)
    (a4 : FVec Ideal S64x2 .f32) (a5 : FVec Ideal S2 .f32) : FVec Ideal S100000x2 .f32 :=
  Cert.KSpec.G3 (sum2Of a0 a1 a2 a3 a4) (dis2Of a1) (b2rowOf a5)

end Cert.KernelIdeal.Terms

end
-- ==== Proof.R0Value.lean ====
/-
  The first kernel's result: the column sums of the node features.

  The kernel visits the 100000 rows in 20 blocks of 5000 consecutive rows.  Its output is one row of 64 entries that
  stays in place from block to block: at the first block the row is set to zero and the block's column sums are added
  to it; at every later block the block's column sums are added to what the block before left.  The row is written
  back once, after the last block.  So entry (0, q) of the result is the sum over all 100000 rows r of x (r, q):
  after block n the row holds the sum of the rows 0 .. 5000 (n + 1) - 1, and block t is rows 5000 t .. 5000 t + 4999.
-/
import proofs.«139473_j72146860638719_2_alg».proof.Proof.Gen.KernelIdeal.Frame
import proofs.«139473_j72146860638719_2_alg».proof.Proof.KSpec
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.R0

open Cert.KernelIdeal Cert.KernelIdeal.Gen

/-! ## What each control case leaves in the carried row -/

section Pieces

variable {F : FTy → Type} [FloatOps F]

theorem hz : (![0, 0] : Fin 2 → Nat) = fun _ => 0 := funext fun a => by fin_cases a <;> rfl

/-- A later block (any block but the first): the carried row `xo` plus the column sums of the block `x`. -/
theorem out_B (c : Dev nD) (i : grid0.Coords) (a1 : Memref sig .tc .vmem S5000x64 .f32) (h1 : a1.IsWhole)
    (a2 : Memref sig .tc .vmem S1x64 .f32) (h2 : a2.IsWhole) (hc : ¬cond0_0 i) (x : Vec F S5000x64 .f32) (xo : Vec F S1x64 .f32) :
    out0_B_1 c i a1 h1 a2 h2 hc x xo = k0_pay2 xo x := by
  unfold out0_B_1
  rw [View.read_writes_eq_canon _ _ _ (cover0_B_1 c i a1 h1 a2 h2 hc x xo)]
  unfold kernelRun0_B
  dsimp only
  rw [View.canon_unit_zero hz]
  simp only [View.readAt_eq_ld, h1.read_unread, h2.read_unread, View.ld_unit_zero (S := S1x64) hz,
    View.ld_unit_zero (S := S5000x64) hz]

/-- The first block: the row is set to zero, read back, and the column sums of the block `x` are added to it. -/
theorem out_A (c : Dev nD) (i : grid0.Coords) (a1 : Memref sig .tc .vmem S5000x64 .f32) (h1 : a1.IsWhole)
    (a2 : Memref sig .tc .vmem S1x64 .f32) (h2 : a2.IsWhole) (hc : cond0_0 i) (x : Vec F S5000x64 .f32) :
    out0_A_1 c i a1 h1 a2 h2 hc x = k0_pay2 (k0_pay1 (F := F)) x := by
  unfold out0_A_1
  rw [View.read_writes_eq_canon _ _ _ (cover0_A_1 c i a1 h1 a2 h2 hc x)]
  unfold kernelRun0_A
  dsimp only
  sl_unfold_words
  rw [View.canon_cons_unit_zero (S := S1x64) hz, View.readCov_unit_zero (S := S1x64) _ hz]
  simp only [View.readAt_eq_ld, h1.read_unread, View.ld_unit_zero (S := S5000x64) hz]

end Pieces

/-! ## The row update read at an entry, over the extended reals -/

/-- The sum of an `[a, b]` matrix over its first axis is, at column `q`, the sum over the rows `p` of entry `(p, q)`.
    The accumulator is the zero word, the neutral element of the sum. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) :=
  (Ideal.multiReduction_add_single src 0x00000000#32 h hφ hacc (ix1 q)).trans
    (Finset.sum_congr rfl fun k _ => congrArg src (funext fun d => Fin.ext (by
      match d with
      | ⟨0, _⟩ => rfl
      | ⟨1, _⟩ => rfl)))

/-- A vector of `b` entries cast to a `1` by `b` row reads, at `(u, q)`, the vector at `q`. -/
theorem shapeCast_b_1b_apply {α : Type} {b : ℕ} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- The row update at entry `(0, q)`: the carried entry plus the sum over the block's 5000 rows of column `q`. -/
theorem pay2_apply (xo : FVec Ideal S1x64 .f32) (x : FVec Ideal S5000x64 .f32) (q : Fin 64) :
    k0_pay2 (F := Ideal) xo x (ix2 (0 : Fin 1) q) = xo (ix2 (0 : Fin 1) q) + ∑ p : Fin 5000, x (ix2 p q) := by
  unfold k0_pay2
  refine (addf_apply _ _ _).trans ?_
  refine congrArg₂ (· + ·) ?_ ?_
  · exact congrFun (shapeCast_self xo _) _
  · exact (shapeCast_b_1b_apply _ _ (0 : Fin 1) q).trans (colSum_apply x _ _ _ q)

/-- The zero row at an entry is `0`. -/
theorem pay1_apply (j : S1x64.Idx) : k0_pay1 (F := Ideal) j = 0 := by
  unfold k0_pay1
  exact Ideal.ofBits_zero_f32

/-! ## Sums over ranges of rows -/

/-- Entry `(r, q)` of the features, and `0` past the last row, so that a sum over a range of rows needs no bound. -/
def rowAt (x : FVec Ideal S100000x64 .f32) (q : Fin 64) (r : ℕ) : EReal :=
  if h : r < 100000 then x (ix2 ⟨r, h⟩ q) else 0

/-- The sum of column `q` over the first `n` rows. -/
def upTo (x : FVec Ideal S100000x64 .f32) (q : Fin 64) (n : ℕ) : EReal := ∑ r ∈ Finset.range n, rowAt x q r

theorem upTo_zero (x : FVec Ideal S100000x64 .f32) (q : Fin 64) : upTo x q (5000 * 0) = 0 := by
  unfold upTo
  rw [Nat.mul_zero, Finset.range_zero, Finset.sum_empty]

/-- The first `5000 (n + 1)` rows are the first `5000 n` rows and then block `n`'s 5000 rows. -/
theorem upTo_succ_block (x : FVec Ideal S100000x64 .f32) (q : Fin 64) (n : ℕ) :
    upTo x q (5000 * n) + ∑ p ∈ Finset.range 5000, rowAt x q (5000 * n + p) = upTo x q (5000 * (n + 1)) := by
  unfold upTo
  rw [Nat.mul_succ, Finset.sum_range_add]

/-- Over all 100000 rows it is the sum over the rows themselves. -/
theorem upTo_all (x : FVec Ideal S100000x64 .f32) (q : Fin 64) : upTo x q 100000 = ∑ r : Fin 100000, x (ix2 r q) := by
  unfold upTo
  rw [Finset.sum_range]
  exact Finset.sum_congr rfl fun r _ => by unfold rowAt; rw [dif_pos r.isLt]

/-! ## The blocks, and the carried row after each block -/

section Blocks

variable (V : (c : Dev nD) → (b : Ref sig .tc) → Buf (Elt Ideal) ((c : Thread nD τ).loc b))

/-- The node features as the kernel finds them. -/
abbrev X (c : Dev nD) : FVec Ideal S100000x64 .f32 := V c (Pipeline.arrRef spec0 0)

/-- Block `t` of the features, as a 5000 by 64 matrix. -/
abbrev blk (c : Dev nD) (t : Fin cfg0.N) : FVec Ideal S5000x64 .f32 := iblk0 V c 0 t

/-- Block `t` of the features starts at block row `t`, column block `0`. -/
theorem idx_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(p, q)` of block `t` is entry `(5000 t + p, q)` of the features. -/
theorem blk_apply (c : Dev nD) (t : Fin cfg0.N) (p : Fin 5000) (q : Fin 64) (hr : 5000 * t.val + p.val < 100000) :
    (iblk0 V c 0 t : FVec Ideal S5000x64 .f32) (ix2 p q) = X V c (ix2 ⟨5000 * t.val + p.val, hr⟩ q) := by
  have hi := idx_facts t
  unfold iblk0
  rw [View.read_apply]
  show V c (Pipeline.arrRef spec0 0) _ = V c (Pipeline.arrRef spec0 0) _
  congr 1
  funext a
  apply Fin.ext
  match a with
  | ⟨0, _⟩ => show win0_0.index t 0 * 5000 + 1 * p.val = 5000 * t.val + p.val; rw [hi.1]; omega
  | ⟨1, _⟩ => show win0_0.index t 1 * 64 + 1 * q.val = q.val; rw [hi.2]; omega

/-- The column sums of block `n` are the sums over the rows `5000 n .. 5000 n + 4999`. -/
theorem blockSum (c : Dev nD) (q : Fin 64) (n : ℕ) (h : n < cfg0.N) :
    ∑ p : Fin 5000, blk V c ⟨n, h⟩ (ix2 p q)
      = ∑ p ∈ Finset.range 5000, rowAt (X V c) q (5000 * n + p) := by
  have hN : n < 20 := lt_of_lt_of_eq h (show cfg0.N = 20 from N_0)
  rw [Finset.sum_range]
  refine Finset.sum_congr rfl fun p _ => ?_
  have hr : 5000 * n + p.val < 100000 := by have := p.isLt; omega
  refine (blk_apply V c ⟨n, h⟩ p q hr).trans ?_
  unfold rowAt
  rw [dif_pos hr]

/-- After the first block the row is the zero row updated with block 0. -/
theorem outsAt_zero (c : Dev nD) (h : 0 < cfg0.N) :
    outsAt0 V c 0 h = k0_pay2 (k0_pay1 (F := Ideal)) (iblk0 V c 0 ⟨0, h⟩) :=
  (outsAt0_A V c ⟨0, h⟩ rfl).trans
    (out_A (F := Ideal) c (grid0.coords ⟨0, h⟩) (ms0_0 ⟨0, h⟩) (hs0_0 ⟨0, h⟩) (ms0_1 ⟨0, h⟩) (hs0_1 ⟨0, h⟩)
      ((hcond0_0 ⟨0, h⟩).mpr rfl) (iblk0 V c 0 ⟨0, h⟩))

/-- After a later block the row is what the block before left, updated with this block. -/
theorem outsAt_succ (c : Dev nD) (n : ℕ) (h : n + 1 < cfg0.N) :
    outsAt0 V c (n + 1) h = k0_pay2 (outsAt0 V c n (Nat.lt_of_succ_lt h)) (iblk0 V c 0 ⟨n + 1, h⟩) := by
  have hN : cfg0.N = 20 := N_0
  have hB : ¬(⟨n + 1, h⟩ : Fin cfg0.N).val % 20 = 0 := by dsimp only; omega
  exact (outsAt0_B V c ⟨n + 1, h⟩ hB).trans
    (out_B (F := Ideal) c (grid0.coords ⟨n + 1, h⟩) (ms0_0 ⟨n + 1, h⟩) (hs0_0 ⟨n + 1, h⟩) (ms0_1 ⟨n + 1, h⟩) (hs0_1 ⟨n + 1, h⟩)
      (fun hh => hB ((hcond0_0 ⟨n + 1, h⟩).mp hh)) (iblk0 V c 0 ⟨n + 1, h⟩) (outsAt0 V c n (Nat.lt_of_succ_lt h)))

/-- The invariant: after block `n` entry `(0, q)` of the carried row is the sum of column `q` over the rows of
    blocks `0 .. n`, that is over the first `5000 (n + 1)` rows.  By induction on the block. -/
theorem outsAt_apply (c : Dev nD) (q : Fin 64) : ∀ (n : ℕ) (h : n < cfg0.N),
    (outsAt0 V c n h : FVec Ideal S1x64 .f32) (ix2 (0 : Fin 1) q) = upTo (X V c) q (5000 * (n + 1))
  | 0, h =>
    calc (outsAt0 V c 0 h : FVec Ideal S1x64 .f32) (ix2 (0 : Fin 1) q)
        = k0_pay2 (k0_pay1 (F := Ideal)) (iblk0 V c 0 ⟨0, h⟩) (ix2 (0 : Fin 1) q) := congrFun (outsAt_zero V c h) _
      _ = k0_pay1 (F := Ideal) (ix2 (0 : Fin 1) q)
            + ∑ p : Fin 5000, blk V c ⟨0, h⟩ (ix2 p q) := pay2_apply _ (blk V c ⟨0, h⟩) q
      _ = upTo (X V c) q (5000 * 0) + ∑ p ∈ Finset.range 5000, rowAt (X V c) q (5000 * 0 + p) := by
            rw [pay1_apply, upTo_zero, blockSum V c q 0 h]
      _ = upTo (X V c) q (5000 * (0 + 1)) := upTo_succ_block _ _ _
  | n + 1, h =>
    calc (outsAt0 V c (n + 1) h : FVec Ideal S1x64 .f32) (ix2 (0 : Fin 1) q)
        = k0_pay2 (outsAt0 V c n (Nat.lt_of_succ_lt h)) (iblk0 V c 0 ⟨n + 1, h⟩) (ix2 (0 : Fin 1) q) :=
          congrFun (outsAt_succ V c n h) _
      _ = (outsAt0 V c n (Nat.lt_of_succ_lt h) : FVec Ideal S1x64 .f32) (ix2 (0 : Fin 1) q)
            + ∑ p : Fin 5000, blk V c ⟨n + 1, h⟩ (ix2 p q) := pay2_apply _ (blk V c ⟨n + 1, h⟩) q
      _ = upTo (X V c) q (5000 * (n + 1)) + ∑ p ∈ Finset.range 5000, rowAt (X V c) q (5000 * (n + 1) + p) := by
            rw [outsAt_apply c q n (Nat.lt_of_succ_lt h), blockSum V c q (n + 1) h]
      _ = upTo (X V c) q (5000 * (n + 1 + 1)) := upTo_succ_block _ _ _

end Blocks

/-! ## The result array -/

section Result

variable (V : (c : Dev nD) → (b : Ref sig .tc) → Buf (Elt Ideal) ((c : Thread nD τ).loc b))

/-- The last block. -/
abbrev tLast : Fin cfg0.N := ⟨19, by rw [show cfg0.N = 20 from N_0]; decide⟩

/-- After the last block the carried row is the column sums over all 100000 rows. -/
theorem outsAt_last (c : Dev nD) :
    (outsAt0 V c tLast.val tLast.isLt : FVec Ideal S1x64 .f32) = Cert.KSpec.G0 (X V c) := by
  funext j
  obtain ⟨u, q, rfl⟩ : ∃ (u : Fin 1) (q : Fin 64), j = ix2 u q := ⟨j 0, j 1, eq_ix2 j⟩
  obtain rfl : u = 0 := Subsingleton.elim _ _
  refine (outsAt_apply V c q 19 tLast.isLt).trans ?_
  show upTo (X V c) q 100000 = Cert.KSpec.g0 (X V c) q
  exact upTo_all _ q

/-- The one write-back, after the last block, writes that row: the output's block is the whole 1 by 64 array, read
    through zero offsets. -/
theorem flushed_eq (c : Dev nD) (t : Fin cfg0.N) (hf : (cfg0.win 1).flush t = true) :
    (dat0 V c).flushed 1 t = ((cfg0.win 1).blk t).view.read (Elt Ideal) (Cert.KSpec.G0 (X V c)) := by
  have hN : cfg0.N = 20 := N_0
  have h19 : t.val = 19 := by have := (flush0_1 t).mp hf; have := t.isLt; omega
  obtain rfl : t = tLast := Fin.ext h19
  show (cfg0.win 1).cut (grid0.coords tLast) ((dat0 V c).after 1 tLast) = _
  rw [after0_1, outsAt_last]
  have hz' : (fun a => win0_1.index tLast a * main_v15.ty.shape.size a) = fun _ => 0 := funext fun a => by fin_cases a <;> decide
  exact (Memref.read_access_unit_zero (Elt Ideal) main_v15 hz' (fun a => by rw [congrFun hz' a]; simp) (Cert.KSpec.G0 (X V c))).symm

/-- The result: the first kernel's output array ends holding the column sums of the features it was entered with —
    entry `(0, q)` is the sum over all 100000 rows `r` of `x (r, q)`.  The last block's write-back covers the array. -/
theorem final (c : Dev nD) :
    ((dat0 (F := Ideal) V c).arrAt 1 cfg0.N : S1x64.Idx → EReal) = Cert.KSpec.G0 (V c (Pipeline.arrRef spec0 0)) :=
  (dat0 V c).arrAt_eq_of_cover 1 (Cert.KSpec.G0 (X V c)) (flushed_eq V c) fun i =>
    ⟨tLast, (flush0_1 tLast).mpr rfl, by
      show i ∈ ((View.whole main_v15).slice (win0_1.rect tLast)).set
      rw [View.set_slice_whole, Rect.mem_set_unit]
      intro a
      have h0 : (i 0 : Nat) < 1 := (i 0).isLt
      have h1 : (i 1 : Nat) < 64 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 64 from by decide +kernel]; omega⟩

end Result

end Cert.KernelIdeal.R0
end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«139473_j72146860638719_2_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.R1Value.lean ====
/-
  The first linear layer, read as one function of its four argument arrays.

  Rows are the 100000 nodes, in 20 blocks of 5000 consecutive rows.  At block `t` the body multiplies rows
  `5000 t … 5000 t + 4999` of the features by the whole weight matrix, adds the bias row to every row and scales
  row `r` by the `r`-th entry of the scaling column; what it writes back is block `t` of the whole-array function
  `Cert.KSpec.G1`.  Entry `(r, q)` of the result depends on row `r` of the features, column `q` of the weights,
  entry `q` of the bias row and entry `r` of the scaling column, and on nothing else; the 20 blocks tile the rows,
  so the array ends holding `G1` of the arrays the region finds.
-/
import proofs.«139473_j72146860638719_2_alg».proof.Proof.Gen.KernelIdeal.Frame
import proofs.«139473_j72146860638719_2_alg».proof.Proof.KSpec
import proofs.«139473_j72146860638719_2_alg».proof.Proof.LibMatmul
import proofs.«139473_j72146860638719_2_alg».proof.Proof.LibRank2
import proofs.«139473_j72146860638719_2_alg».proof.Proof.LibKeepdims
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.R1

open Cert.KernelIdeal Cert.KernelIdeal.Gen

/-- The body's value at entry `(p, q)` of its block: row `p` of the feature block times column `q` of the weights,
    plus entry `q` of the bias row, times entry `p` of the scaling column.  (A change of float format is the identity on
    extended reals, a cast to the same shape is the identity, the product accumulates from zero.) -/
theorem pay_apply (x0 : Vec Ideal S5000x64 .f32) (x1 : Vec Ideal S64x64 .f32) (x2 : Vec Ideal S1x64 .f32)
    (x3 : Vec Ideal S5000x1 .f32) (p : Fin 5000) (q : Fin 64) :
    k1_pay1 (F := Ideal) x0 x1 x2 x3 (ix2 p q)
      = (∑ k : Fin 64, x0 (ix2 p k) * x1 (ix2 k q) + x2 (ix2 (0 : Fin 1) q)) * x3 (ix2 p (0 : Fin 1)) := by
  have e1 : shapeCast S64x64 x1 shapeCasts_S64x64_S64x64 = x1 := shapeCast_self _ _
  have e3 : shapeCast S5000x1 x3 shapeCasts_S5000x1_S5000x1 = x3 := shapeCast_self _ _
  have hmm := Cert.MatmulAt.matmul_zero_plain_apply (M := 5000) (K := 64) (N := 64)
    dot_S5000x64_S64x64_S5000x64_1_0_0_1_n_n_wf none
    (truncf .bf16 x0 bitsLt_bf16_f32 : FVec Ideal S5000x64 .bf16)
    (truncf .bf16 x1 bitsLt_bf16_f32 : FVec Ideal S64x64 .bf16) p q
  have hb := Cert.Rank2.rowBias_vec_apply (M := 5000) x2 shapeCasts_S1x64_S1x64 broadcasts_S1x64_S5000x64 p q
  have hd := Cert.Keepdims.broadcastTo_a1_ab_apply x3 broadcasts_S5000x1_S5000x64 p q
  unfold k1_pay1
  rw [e1, e3]
  exact congrArg₂ (· * ·) (congrArg₂ (· + ·) hmm hb) hd

/-- The same entry against the whole arrays: when row `p` of the feature block is row `r` of the features, the weight
    and bias blocks are the whole weights and bias, and entry `p` of the scaling block is entry `r` of the scaling
    column, the body's value at `(p, q)` is `G1` at `(r, q)`. -/
theorem pay_block (A0 : FVec Ideal ⟨2, ![100000, 64]⟩ .f32) (A1 : FVec Ideal ⟨2, ![64, 64]⟩ .f32)
    (A2 : FVec Ideal ⟨2, ![1, 64]⟩ .f32) (A3 : FVec Ideal ⟨2, ![100000, 1]⟩ .f32)
    (x0 : Vec Ideal S5000x64 .f32) (x1 : Vec Ideal S64x64 .f32) (x2 : Vec Ideal S1x64 .f32) (x3 : Vec Ideal S5000x1 .f32)
    (p : Fin 5000) (q : Fin 64) (r : Fin 100000)
    (h0 : ∀ k : Fin 64, x0 (ix2 p k) = A0 (ix2 r k)) (h1 : x1 = A1) (h2 : x2 = A2)
    (h3 : x3 (ix2 p (0 : Fin 1)) = A3 (ix2 r (0 : Fin 1))) :
    k1_pay1 (F := Ideal) x0 x1 x2 x3 (ix2 p q) = Cert.KSpec.G1 A0 A1 A2 A3 (ix2 r q) := by
  rw [pay_apply, h3, h1, h2]
  show _ = Cert.KSpec.g1 A0 A1 A2 A3 r q
  unfold Cert.KSpec.g1
  rw [Finset.sum_congr rfl fun k _ => congrArg (· * A1 (ix2 k q)) (h0 k)]

theorem hz : (![0, 0] : Fin 2 → Nat) = fun _ => 0 := funext fun a => by fin_cases a <;> rfl

/-- The block indices at point `t`, decided over the 20 points: the feature, scaling and result blocks are block `t` of
    their arrays' rows, the weight and bias blocks are their whole arrays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is block `t` of `G1` of the arrays as the region finds them. -/
theorem flushed_eq (c : Dev nD) (t : Fin cfg1.N) :
    (dat1 (F := Ideal) V c).flushed 4 t = ((cfg1.win 4).blk t).view.read (Elt Ideal)
      (Cert.KSpec.G1 (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x64) hz, View.ld_unit_zero (S := S1x64) hz,
    View.ld_unit_zero (S := S5000x1) hz]
  obtain ⟨e00, e01, e10, e11, e20, e21, e30, e31, e40, e41⟩ := idx_facts t
  have ht : t.val < 20 := lt_of_lt_of_eq t.isLt N_1
  refine funext fun (j : S5000x64.Idx) => ?_
  obtain ⟨p, q, rfl⟩ : ∃ (p : Fin 5000) (q : Fin 64), j = ix2 p q := ⟨j 0, j 1, eq_ix2 j⟩
  have hp : p.val < 5000 := p.isLt
  refine (pay_block (V c (Pipeline.arrRef spec1 0)) (V c (Pipeline.arrRef spec1 1)) (V c (Pipeline.arrRef spec1 2))
    (V c (Pipeline.arrRef spec1 3)) (iblk1 V c 0 t) (iblk1 V c 1 t) (iblk1 V c 2 t) (iblk1 V c 3 t) p q
    ⟨5000 * t.val + p.val, by omega⟩ ?_ ?_ ?_ ?_).trans ?_
  · -- row `p` of the feature block is row `5000 t + p` of the features
    intro k
    show V c (Pipeline.arrRef spec1 0) (((cfg1.win 0).blk t).view.emb (ix2 p k)) = _
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 64 + 1 * k.val = k.val; omega
  · -- the weight block is the whole weight matrix
    refine funext fun (y : S64x64.Idx) => ?_
    show V c (Pipeline.arrRef spec1 1) (((cfg1.win 1).blk t).view.emb y) = _
    refine congrArg _ (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · -- the bias block is the whole bias row
    refine funext fun (y : S1x64.Idx) => ?_
    show V c (Pipeline.arrRef spec1 2) (((cfg1.win 2).blk t).view.emb y) = _
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega
  · -- entry `p` of the scaling block is entry `5000 t + p` of the scaling column
    show V c (Pipeline.arrRef spec1 3) (((cfg1.win 3).blk t).view.emb (ix2 p (0 : Fin 1))) = _
    refine congrArg _ (funext fun a => Fin.ext ?_)
    match a with
    | ⟨0, _⟩ => show win1_3.index t (0 : Fin 2) * 5000 + 1 * p.val = 5000 * t.val + p.val; omega
    | ⟨1, _⟩ => show win1_3.index t (1 : Fin 2) * 1 + 1 * 0 = 0; omega
  · -- entry `(p, q)` of the result block is entry `(5000 t + p, q)` of the result
    show _ = Cert.KSpec.G1 _ _ _ _ (((cfg1.win 4).blk t).view.emb (ix2 p q))
    refine congrArg _ (funext fun a => Fin.ext ?_)
    match a with
    | ⟨0, _⟩ => show 5000 * t.val + p.val = win1_4.index t (0 : Fin 2) * 5000 + 1 * p.val; omega
    | ⟨1, _⟩ => show q.val = win1_4.index t (1 : Fin 2) * 64 + 1 * q.val; omega

/-- An index of the result array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v21).slice (win1_4.rect t)).set ↔ _
  rw [View.set_slice_whole, Rect.mem_set_unit]
  exact Iff.rfl

/-- Row `r` of the result is written back by point `r / 5000`: the 20 blocks tile the 100000 rows. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e40, e41⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- The result array after the region: `G1` of the four arrays the region finds. -/
theorem final (c : Dev nD) :
    ((dat1 (F := Ideal) V c).arrAt 4 cfg1.N : S100000x64.Idx → EReal)
      = Cert.KSpec.G1 (V c (Pipeline.arrRef spec1 0)) (V c (Pipeline.arrRef spec1 1)) (V c (Pipeline.arrRef spec1 2))
          (V c (Pipeline.arrRef spec1 3)) :=
  (dat1 (F := Ideal) V c).arrAt_eq_of_cover 4 _ (fun t _ => flushed_eq V c t) cover

end Cert.KernelIdeal.R1

end
-- ==== Proof.R2Value.lean ====
/-
  The second linear layer's kernel, read as a whole array.

  At every grid point t the body takes rows 5000 t .. 5000 t + 4999 of the scaled sums `s` and of the column `dis`, the whole
  bias row `b` and the whole weight matrix `w`, and stores, at row p and column q of the point's block,
  (sum over k of max (dis p * s (p, k) + b k) 0 * w (k, q)) * dis p.  The twenty blocks tile the 100000 rows, so the output
  array ends holding that expression at every row: entry (r, q) depends on row r of `s`, on `dis r`, on `b` and on column q of `w`.
-/
import proofs.«139473_j72146860638719_2_alg».proof.Proof.Gen.KernelIdeal.Frame
import proofs.«139473_j72146860638719_2_alg».proof.Proof.KSpec
import proofs.«139473_j72146860638719_2_alg».proof.Proof.LibMatmul
import proofs.«139473_j72146860638719_2_alg».proof.Proof.LibRank2
import proofs.«139473_j72146860638719_2_alg».proof.Proof.LibKeepdims
import Idealize.ShloMosaic.Lib.Pipeline.Value
import Idealize.ShloMosaic.Lib.ValueIdx
import Idealize.ShloMosaic.PureOps.Ideal.Laws

noncomputable section

namespace Cert.KernelIdeal.R2

open Cert.KernelIdeal Cert.KernelIdeal.Gen Idealize.ShloMosaic Idealize.ShloMosaic.TcCoe Idealize.ShloMosaic.ValueIdx
open Idealize.ShloMosaic.Pipeline (Dat)
open scoped BigOperators

/-! ## The body's stored value at an entry -/

/-- Entry (p, q) of what the body stores, from the blocks it loads: the rectified hidden row p contracted with column q
    of the weights, scaled by the column entry of row p.  The change of format before the product is the identity on
    extended reals, the product into a zero accumulator is the plain sum over k, and the zero word is 0. -/
theorem pay_apply (d : FVec Ideal S5000x1 .f32) (s : FVec Ideal S5000x64 .f32) (b : FVec Ideal S1x64 .f32)
    (w : FVec Ideal S64x2 .f32) (p : Fin 5000) (q : Fin 2) :
    k2_pay1 (F := Ideal) d s b w (ix2 p q)
      = (∑ k : Fin 64, max (d (ix2 p (0 : Fin 1)) * s (ix2 p k) + b (ix2 (0 : Fin 1) k)) 0 * w (ix2 k q))
          * d (ix2 p (0 : Fin 1)) := by
  unfold k2_pay1
  rw [mulf_apply, Cert.Keepdims.broadcastTo_a1_ab_apply, shapeCast_self]
  congr 1
  refine (Cert.MatmulAt.matmul_zero_plain_apply dot_S5000x64_S64x2_S5000x2_1_0_0_1_n_n_wf none _ _ p q).trans ?_
  refine Finset.sum_congr rfl fun k _ => ?_
  rw [truncf_apply, truncf_apply, maximumf_apply, addf_apply, mulf_apply, broadcast_apply,
    Cert.Keepdims.broadcastTo_a1_ab_apply, Cert.Rank2.rowBias_vec_apply, shapeCast_self]
  show max (d (ix2 p (0 : Fin 1)) * s (ix2 p k) + b (ix2 (0 : Fin 1) k)) (Ideal.ofBits .f32 0x00000000#32) * w (ix2 k q) = _
  rw [Ideal.ofBits_zero_f32]

/-- A block's entry (p, q) is the whole-array expression at row r = 5000 t + p, once each loaded block is the matching
    rows of its array: rows 5000 t .. 5000 t + 4999 of `s` and of `dis`, all of `b` and of `w`. -/
theorem pay_eq_spec (S : FVec Ideal S100000x64 .f32) (D : FVec Ideal S100000x1 .f32) (B : FVec Ideal S1x64 .f32)
    (W : FVec Ideal S64x2 .f32) (d : FVec Ideal S5000x1 .f32) (s : FVec Ideal S5000x64 .f32) (p : Fin 5000) (q : Fin 2)
    (r : Fin 100000) (hd : d (ix2 p (0 : Fin 1)) = D (ix2 r (0 : Fin 1))) (hs : ∀ k : Fin 64, s (ix2 p k) = S (ix2 r k)) :
    k2_pay1 (F := Ideal) d s B W (ix2 p q) = Cert.KSpec.G2 S D B W (ix2 r q) := by
  rw [pay_apply, hd]
  show _ = (∑ k : Fin 64, max (D (ix2 r (0 : Fin 1)) * S (ix2 r k) + B (ix2 (0 : Fin 1) k)) 0 * W (ix2 k q)) * D (ix2 r (0 : Fin 1))
  congr 1
  exact Finset.sum_congr rfl fun k _ => by rw [hs k]

/-! ## From blocks to the array -/

section Region
variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the row windows (`s`, `dis` and the output) are at block (t, 0) at point t, the
    two whole windows (`b`, `w`) at block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the block of `s` at point t is row 5000 t + p of `s`. -/
theorem s_block_apply (c : Dev nD) (t : Fin cfg2.N) (p : Fin 5000) (k : Fin 64) (r : Fin 100000)
    (hr : r.val = 5000 * t.val + p.val) :
    (iblk2 V c 0 t : Vec Ideal S5000x64 .f32) (ix2 p k) = (V c main_v32 : S100000x64.Idx → EReal) (ix2 r k) := by
  obtain ⟨e0, e1, -⟩ := block_indices t
  unfold iblk2
  rw [View.read_apply]
  show V c main_v32 _ = V c main_v32 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- Row p of the block of `dis` at point t is row 5000 t + p of `dis`. -/
theorem dis_block_apply (c : Dev nD) (t : Fin cfg2.N) (p : Fin 5000) (u : Fin 1) (r : Fin 100000)
    (hr : r.val = 5000 * t.val + p.val) :
    (iblk2 V c 1 t : Vec Ideal S5000x1 .f32) (ix2 p u) = (V c main_v14 : S100000x1.Idx → EReal) (ix2 r u) := by
  obtain ⟨-, -, e0, e1, -⟩ := block_indices t
  unfold iblk2
  rw [View.read_apply]
  show V c main_v14 _ = V c main_v14 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 1 + 1 * u.val = u.val; rw [e1]; omega

/-- The block of `b` at every point is all of `b`. -/
theorem b_block (c : Dev nD) (t : Fin cfg2.N) :
    (iblk2 V c 2 t : Vec Ideal S1x64 .f32) = (V c main_v33 : S1x64.Idx → EReal) := by
  obtain ⟨-, -, -, -, e0, e1, -⟩ := block_indices t
  funext y
  unfold iblk2
  rw [View.read_apply]
  show V c main_v33 _ = V c main_v33 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- The block of `w` at every point is all of `w`. -/
theorem w_block (c : Dev nD) (t : Fin cfg2.N) :
    (iblk2 V c 3 t : Vec Ideal S64x2 .f32) = (V c main_arg4 : S64x2.Idx → EReal) := by
  obtain ⟨-, -, -, -, -, -, e0, e1, -⟩ := block_indices t
  funext y
  unfold iblk2
  rw [View.read_apply]
  show V c main_arg4 _ = V c main_arg4 _
  congr 1
  funext a
  apply Fin.ext
  match a with
  | ⟨0, _⟩ => show win2_3.index t (0 : Fin 2) * 64 + 1 * (y 0).val = (y 0).val; rw [e0]; omega
  | ⟨1, _⟩ => show win2_3.index t (1 : Fin 2) * 2 + 1 * (y 1).val = (y 1).val; rw [e1]; omega

/-- The whole-array expression of the arrays as the region finds them. -/
abbrev spec (c : Dev nD) : S100000x2.Idx → EReal :=
  Cert.KSpec.G2 (V c main_v32) (V c main_v14) (V c main_v33) (V c main_arg4)

/-- What point t writes back is rows 5000 t .. 5000 t + 4999 of the whole-array expression. -/
theorem flushed_eq (c : Dev nD) (t : Fin cfg2.N) :
    (dat2 V c).flushed 4 t = ((cfg2.win 4).blk t).view.read (Elt Ideal) (spec V c) := by
  show (cfg2.win 4).cut (grid2.coords t) ((dat2 V c).after 4 t) = _
  rw [after2_4]
  unfold out2_4
  rw [View.canon_unit_zero zero_offsets]
  simp only [View.ld_unit_zero (S := S5000x1) zero_offsets, View.ld_unit_zero (S := S5000x64) zero_offsets,
    View.ld_unit_zero (S := S1x64) zero_offsets, View.ld_unit_zero (S := S64x2) zero_offsets]
  rw [b_block V c t, w_block V c t]
  obtain ⟨-, -, -, -, -, -, -, -, e0, e1⟩ := block_indices t
  have hN : cfg2.N = 20 := N_2
  have ht : t.val < 20 := hN ▸ t.isLt
  funext j
  obtain ⟨p, q, rfl⟩ : ∃ (p : Fin 5000) (q : Fin 2), j = ix2 p q := ⟨j 0, j 1, eq_ix2 j⟩
  have hr : 5000 * t.val + p.val < 100000 := by have := p.isLt; omega
  rw [View.read_apply]
  show k2_pay1 (F := Ideal) (iblk2 V c 1 t) (iblk2 V c 0 t) (V c main_v33) (V c main_arg4) (ix2 p q) = spec V c _
  refine (pay_eq_spec (V c main_v32) (V c main_v14) (V c main_v33) (V c main_arg4) _ _ p q ⟨5000 * t.val + p.val, hr⟩
    (dis_block_apply V c t p 0 _ rfl) (fun k => s_block_apply V c t p k _ rfl)).trans ?_
  show spec V c _ = spec V c _
  congr 1
  funext a
  apply Fin.ext
  match a with
  | ⟨0, _⟩ => show 5000 * t.val + p.val = win2_4.index t (0 : Fin 2) * 5000 + 1 * p.val; rw [e0]; omega
  | ⟨1, _⟩ => show q.val = win2_4.index t (1 : Fin 2) * 2 + 1 * q.val; rw [e1]; omega

/-- An entry of the array is in point t's block iff each coordinate is in the block's range on its axis. -/
theorem mem_blk (t : Fin cfg2.N) (i : S100000x2.Idx) :
    i ∈ ((cfg2.win 4).blk t).view.set ↔ ∀ a : Fin 2, win2_4.index t a * S5000x2.size a ≤ (i a).val
      ∧ (i a).val < win2_4.index t a * S5000x2.size a + S5000x2.size a := by
  show i ∈ ((View.whole main_v34).slice (win2_4.rect t)).set ↔ _
  rw [View.set_slice_whole, Rect.mem_set_unit]
  exact Iff.rfl

/-- Row r is in the block of point r / 5000, and every point writes back. -/
theorem cover (i : S100000x2.Idx) :
    ∃ t : Fin cfg2.N, (cfg2.win 4).flush t = true ∧ i ∈ ((cfg2.win 4).blk t).view.set := by
  have hN : cfg2.N = 20 := N_2
  have hi0 : (i 0).val < 100000 := idx2_lt0 i
  have hi1 : (i 1).val < 2 := idx2_lt1 i
  let t : Fin cfg2.N := ⟨(i 0).val / 5000, by rw [hN]; omega⟩
  obtain ⟨-, -, -, -, -, -, -, -, e0, e1⟩ := block_indices t
  have htv : t.val = (i 0).val / 5000 := rfl
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    rw [e0, htv]; omega
  | ⟨1, _⟩ =>
    show win2_4.index t (1 : Fin 2) * 2 ≤ (i 1).val ∧ (i 1).val < win2_4.index t (1 : Fin 2) * 2 + 2
    rw [e1]; omega

/-- The output array after the region: the second linear layer of the rectified hidden rows, scaled row by row, of
    the arrays as the region finds them. -/
theorem final (c : Dev nD) :
    ((dat2 (F := Ideal) V c).arrAt 4 cfg2.N : S100000x2.Idx → EReal)
      = Cert.KSpec.G2 (V c (Pipeline.arrRef spec2 0)) (V c (Pipeline.arrRef spec2 1)) (V c (Pipeline.arrRef spec2 2))
          (V c (Pipeline.arrRef spec2 3)) :=
  (dat2 V c).arrAt_eq_of_cover 4 (spec V c) (fun t _ => flushed_eq V c t) cover

end Region

end Cert.KernelIdeal.R2

end
-- ==== Proof.R3Value.lean ====
/-
  The last scaling and bias, read as one function of its three argument arrays.

  Rows are the 100000 nodes, in 20 blocks of 5000 consecutive rows.  At block `t` the body scales row `r` of the summed
  messages (rows `5000 t … 5000 t + 4999`) by the `r`-th entry of the scaling column and adds the bias row to every row;
  what it writes back is block `t` of the whole-array function `Cert.KSpec.G3`.  Entry `(r, q)` of the result depends
  on entry `(r, q)` of the summed messages, entry `r` of the scaling column and entry `q` of the bias row, and on
  nothing else; the 20 blocks tile the rows, so the array ends holding `G3` of the arrays the region finds.
-/
import proofs.«139473_j72146860638719_2_alg».proof.Proof.Gen.KernelIdeal.Frame
import proofs.«139473_j72146860638719_2_alg».proof.Proof.KSpec
import proofs.«139473_j72146860638719_2_alg».proof.Proof.LibRank2
import proofs.«139473_j72146860638719_2_alg».proof.Proof.LibKeepdims
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.R3

open Cert.KernelIdeal Cert.KernelIdeal.Gen

/-- The body's value at entry `(p, q)` of its block: entry `p` of the scaling column times entry `(p, q)` of the
    message block, plus entry `q` of the bias row.  (A cast to the same shape is the identity.) -/
theorem pay_apply (xd : Vec Ideal S5000x1 .f32) (xs : Vec Ideal S5000x2 .f32) (xb : Vec Ideal S1x2 .f32)
    (p : Fin 5000) (q : Fin 2) :
    k3_pay1 (F := Ideal) xd xs xb (ix2 p q)
      = xd (ix2 p (0 : Fin 1)) * xs (ix2 p q) + xb (ix2 (0 : Fin 1) q) := by
  have ed : shapeCast S5000x1 xd shapeCasts_S5000x1_S5000x1 = xd := shapeCast_self _ _
  have es : shapeCast S5000x2 xs shapeCasts_S5000x2_S5000x2 = xs := shapeCast_self _ _
  have hd := Cert.Keepdims.broadcastTo_a1_ab_apply xd broadcasts_S5000x1_S5000x2 p q
  have hb := Cert.Rank2.rowBias_vec_apply (M := 5000) xb shapeCasts_S1x2_S1x2 broadcasts_S1x2_S5000x2 p q
  unfold k3_pay1
  rw [ed, es]
  exact congrArg₂ (· + ·) (congrArg (· * xs (ix2 p q)) hd) hb

/-- The same entry against the whole arrays: when entry `(p, q)` of the message block is entry `(r, q)` of the
    messages, entry `p` of the scaling block is entry `r` of the scaling column and the bias block is the whole bias
    row, the body's value at `(p, q)` is `G3` at `(r, q)`. -/
theorem pay_block (A0 : FVec Ideal ⟨2, ![100000, 2]⟩ .f32) (A1 : FVec Ideal ⟨2, ![100000, 1]⟩ .f32)
    (A2 : FVec Ideal ⟨2, ![1, 2]⟩ .f32)
    (xs : Vec Ideal S5000x2 .f32) (xd : Vec Ideal S5000x1 .f32) (xb : Vec Ideal S1x2 .f32)
    (p : Fin 5000) (q : Fin 2) (r : Fin 100000)
    (h0 : xs (ix2 p q) = A0 (ix2 r q)) (h1 : xd (ix2 p (0 : Fin 1)) = A1 (ix2 r (0 : Fin 1))) (h2 : xb = A2) :
    k3_pay1 (F := Ideal) xd xs xb (ix2 p q) = Cert.KSpec.G3 A0 A1 A2 (ix2 r q) := by
  rw [pay_apply, h0, h1, h2]
  rfl

theorem hz : (![0, 0] : Fin 2 → Nat) = fun _ => 0 := funext fun a => by fin_cases a <;> rfl

/-- The block indices at point `t`, decided over the 20 points: the message, scaling and result blocks are block `t` of
    their arrays' rows, the bias block is its whole array. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point `t` writes back is block `t` of `G3` of the arrays as the region finds them. -/
theorem flushed_eq (c : Dev nD) (t : Fin cfg3.N) :
    (dat3 (F := Ideal) V c).flushed 3 t = ((cfg3.win 3).blk t).view.read (Elt Ideal)
      (Cert.KSpec.G3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x2) hz, View.ld_unit_zero (S := S5000x1) hz, View.ld_unit_zero (S := S1x2) hz]
  obtain ⟨e00, e01, e10, e11, e20, e21, e30, e31⟩ := idx_facts t
  have ht : t.val < 20 := lt_of_lt_of_eq t.isLt N_3
  refine funext fun (j : S5000x2.Idx) => ?_
  obtain ⟨p, q, rfl⟩ : ∃ (p : Fin 5000) (q : Fin 2), j = ix2 p q := ⟨j 0, j 1, eq_ix2 j⟩
  have hp : p.val < 5000 := p.isLt
  refine (pay_block (V c (Pipeline.arrRef spec3 0)) (V c (Pipeline.arrRef spec3 1)) (V c (Pipeline.arrRef spec3 2))
    (iblk3 V c 0 t) (iblk3 V c 1 t) (iblk3 V c 2 t) p q ⟨5000 * t.val + p.val, by omega⟩ ?_ ?_ ?_).trans ?_
  · -- entry `(p, q)` of the message block is entry `(5000 t + p, q)` of the messages
    show V c (Pipeline.arrRef spec3 0) (((cfg3.win 0).blk t).view.emb (ix2 p q)) = _
    refine congrArg _ (funext fun a => Fin.ext ?_)
    match a with
    | ⟨0, _⟩ => show win3_0.index t (0 : Fin 2) * 5000 + 1 * p.val = 5000 * t.val + p.val; omega
    | ⟨1, _⟩ => show win3_0.index t (1 : Fin 2) * 2 + 1 * q.val = q.val; omega
  · -- entry `p` of the scaling block is entry `5000 t + p` of the scaling column
    show V c (Pipeline.arrRef spec3 1) (((cfg3.win 1).blk t).view.emb (ix2 p (0 : Fin 1))) = _
    refine congrArg _ (funext fun a => Fin.ext ?_)
    match a with
    | ⟨0, _⟩ => show win3_1.index t (0 : Fin 2) * 5000 + 1 * p.val = 5000 * t.val + p.val; omega
    | ⟨1, _⟩ => show win3_1.index t (1 : Fin 2) * 1 + 1 * 0 = 0; omega
  · -- the bias block is the whole bias row
    refine funext fun (y : S1x2.Idx) => ?_
    show V c (Pipeline.arrRef spec3 2) (((cfg3.win 2).blk t).view.emb y) = _
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 2 + 1 * (y 1).val = (y 1).val; omega
  · -- entry `(p, q)` of the result block is entry `(5000 t + p, q)` of the result
    show _ = Cert.KSpec.G3 _ _ _ (((cfg3.win 3).blk t).view.emb (ix2 p q))
    refine congrArg _ (funext fun a => Fin.ext ?_)
    match a with
    | ⟨0, _⟩ => show 5000 * t.val + p.val = win3_3.index t (0 : Fin 2) * 5000 + 1 * p.val; omega
    | ⟨1, _⟩ => show q.val = win3_3.index t (1 : Fin 2) * 2 + 1 * q.val; omega

/-- An index of the result array is in point `t`'s block iff each coordinate is in the block's range on its axis. -/
theorem mem_blk (t : Fin cfg3.N) (i : S100000x2.Idx) :
    i ∈ ((cfg3.win 3).blk t).view.set ↔ ∀ a : Fin 2, win3_3.index t a * S5000x2.size a ≤ (i a).val
      ∧ (i a).val < win3_3.index t a * S5000x2.size a + S5000x2.size a := by
  show i ∈ ((View.whole main_v46).slice (win3_3.rect t)).set ↔ _
  rw [View.set_slice_whole, Rect.mem_set_unit]
  exact Iff.rfl

/-- Row `r` of the result is written back by point `r / 5000`: the 20 blocks tile the 100000 rows. -/
theorem cover (i : S100000x2.Idx) :
    ∃ t : Fin cfg3.N, (cfg3.win 3).flush t = true ∧ i ∈ ((cfg3.win 3).blk t).view.set := by
  have hi0 : (i 0).val < 100000 := (i 0).isLt
  have hi1 : (i 1).val < 2 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, e30, e31⟩ := idx_facts t
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 2 ≤ (i 1).val ∧ (i 1).val < win3_3.index t (1 : Fin 2) * 2 + 2
    omega

/-- The result array after the region: `G3` of the three arrays the region finds. -/
theorem final (c : Dev nD) :
    ((dat3 (F := Ideal) V c).arrAt 3 cfg3.N : S100000x2.Idx → EReal)
      = Cert.KSpec.G3 (V c (Pipeline.arrRef spec3 0)) (V c (Pipeline.arrRef spec3 1)) (V c (Pipeline.arrRef spec3 2)) :=
  (dat3 (F := Ideal) V c).arrAt_eq_of_cover 3 _ (fun t _ => flushed_eq V c t) cover

end Cert.KernelIdeal.R3

end
-- ==== Proof.KernelChain.lean ====
/-
  The idealized kernel program's buffers, boundary by boundary, are the pure terms of the argument arrays: each host
  stretch applies its operations to what the boundary before holds, each region leaves its whole-array function of the
  arrays it was entered with, and a buffer written earlier still holds what it held.
-/
import proofs.«139473_j72146860638719_2_alg».proof.Proof.KernelBack
import proofs.«139473_j72146860638719_2_alg».proof.Proof.KernelTerms
import proofs.«139473_j72146860638719_2_alg».proof.Proof.R0Value
import proofs.«139473_j72146860638719_2_alg».proof.Proof.R1Value
import proofs.«139473_j72146860638719_2_alg».proof.Proof.R2Value
import proofs.«139473_j72146860638719_2_alg».proof.Proof.R3Value

set_option maxRecDepth 16384

noncomputable section

namespace Cert.KernelIdeal.Chain

open Cert.KernelIdeal Cert.KernelIdeal.Gen Cert.KernelIdeal.Back Cert.KernelIdeal.Terms
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)

/-- One host stretch read at one buffer: rewrite operation by operation, then the two sides are one term. -/
macro "stretch" : tactic => `(tactic| (after_results <;> try rfl))

/-! ## After the first host stretch -/

theorem W1_v1 : W1 m ρ c (Proc.devRef .tc main_v1) = srcOf a1 := by
  show StableHlo.after hostOps0 (W0 m ρ c) _ = _
  stretch

theorem W1_v3 : W1 m ρ c (Proc.devRef .tc main_v3) = dstOf a1 := by
  show StableHlo.after hostOps0 (W0 m ρ c) _ = _
  stretch

theorem W1_v9 : W1 m ρ c (Proc.devRef .tc main_v9)
    = cmpf .ogt (degOf a1) (broadcastInDim S100000 ![] bcast_S_S100000 (constant (F := Ideal) S_ .f32 0x00000000#32)) := by
  show StableHlo.after hostOps0 (W0 m ρ c) _ = _
  stretch

theorem W1_v12 : W1 m ρ c (Proc.devRef .tc main_v12)
    = Host.rsqrt (maximumf (degOf a1) (broadcastInDim S100000 ![] bcast_S_S100000 (constant (F := Ideal) S_ .f32 0x3F800000#32))) := by
  show StableHlo.after hostOps0 (W0 m ρ c) _ = _
  stretch

theorem W1_cst3 : W1 m ρ c (Proc.devRef .tc main_cst_3) = constant (F := Ideal) S_ .f32 0x00000000#32 := by
  show StableHlo.after hostOps0 (W0 m ρ c) _ = _
  stretch

/-! ## The degree scale and its column

The `where` is a called function whose operations carry their values through the typed references' transports; each
transport along a reference's type is the identity. -/

theorem cast_v13 (v : FVec Ideal S100000 .f32) : (TRef.of main_v13 : TRef sig ⟨S100000, .f32⟩).toBuf (Val := Elt Ideal) v = v := rfl
theorem cast_v12 (v : FVec Ideal S100000 .f32) : (TRef.of main_v12 : TRef sig ⟨S100000, .f32⟩).ofBuf (Val := Elt Ideal) v = v := rfl
theorem cast_v9 (v : IVec S100000 1) : (TRef.of main_v9 : TRef sig ⟨S100000, .i1⟩).ofBuf (Val := Elt Ideal) v = v := rfl
theorem cast_cst3 (v : FVec Ideal S_ .f32) : (TRef.of main_cst_3 : TRef sig ⟨S_, .f32⟩).ofBuf (Val := Elt Ideal) v = v := rfl
theorem cast_to0 (v : FVec Ideal S_ .f32) : (TRef.of main_call0_v0 : TRef sig ⟨S_, .f32⟩).toBuf (Val := Elt Ideal) v = v := rfl

set_option maxHeartbeats 1000000 in
theorem W2_v13 : W2 m ρ c (Proc.devRef .tc main_v13) = disOf a1 := by
  have h9 := W1_v9 m ρ c
  have h12 := W1_v12 m ρ c
  have h3 := W1_cst3 m ρ c
  show StableHlo.after hostOps0_1 (W1 m ρ c) _ = _
  generalize W1 m ρ c = V at h9 h12 h3 ⊢
  after_results
  rw [h9, h12, h3]
  repeat (first | rw [cast_cst3] | rw [cast_to0] | rw [cast_v9] | rw [cast_v12] | rw [cast_v13])
  rfl

theorem W3_v14 : W3 m ρ c (Proc.devRef .tc main_v14) = dis2Of a1 := by
  have h := W2_v13 m ρ c
  show StableHlo.after hostOps0_2 (W2 m ρ c) _ = _
  generalize W2 m ρ c = V at h ⊢
  after_results
  rw [h]
  rfl

/-! ## Buffers read later hold what they held -/

theorem W3_arg0 : W3 m ρ c (Proc.devRef .tc main_arg0) = a0 := ((main_arg0_3_2 m ρ c).trans ((main_arg0_2_1 m ρ c).trans (main_arg0_1_0 m ρ c)))
theorem W5_arg0 : W5 m ρ c (Proc.devRef .tc main_arg0) = a0 := ((main_arg0_5_4 m ρ c).trans ((main_arg0_4_3 m ρ c).trans ((main_arg0_3_2 m ρ c).trans ((main_arg0_2_1 m ρ c).trans (main_arg0_1_0 m ρ c)))))
theorem W4_arg2 : W4 m ρ c (Proc.devRef .tc main_arg2) = a2 := ((main_arg2_4_3 m ρ c).trans ((main_arg2_3_2 m ρ c).trans ((main_arg2_2_1 m ρ c).trans (main_arg2_1_0 m ρ c))))
theorem W6_arg3 : W6 m ρ c (Proc.devRef .tc main_arg3) = a3 := ((main_arg3_6_5 m ρ c).trans ((main_arg3_5_4 m ρ c).trans ((main_arg3_4_3 m ρ c).trans ((main_arg3_3_2 m ρ c).trans ((main_arg3_2_1 m ρ c).trans (main_arg3_1_0 m ρ c))))))
theorem W7_arg4 : W7 m ρ c (Proc.devRef .tc main_arg4) = a4 := ((main_arg4_7_6 m ρ c).trans ((main_arg4_6_5 m ρ c).trans ((main_arg4_5_4 m ρ c).trans ((main_arg4_4_3 m ρ c).trans ((main_arg4_3_2 m ρ c).trans ((main_arg4_2_1 m ρ c).trans (main_arg4_1_0 m ρ c)))))))
theorem W8_arg5 : W8 m ρ c (Proc.devRef .tc main_arg5) = a5 := ((main_arg5_8_7 m ρ c).trans ((main_arg5_7_6 m ρ c).trans ((main_arg5_6_5 m ρ c).trans ((main_arg5_5_4 m ρ c).trans ((main_arg5_4_3 m ρ c).trans ((main_arg5_3_2 m ρ c).trans ((main_arg5_2_1 m ρ c).trans (main_arg5_1_0 m ρ c))))))))
theorem W5_v14 : W5 m ρ c (Proc.devRef .tc main_v14) = dis2Of a1 := (((main_v14_5_4 m ρ c).trans (main_v14_4_3 m ρ c)).trans (W3_v14 m ρ c))
theorem W7_v14 : W7 m ρ c (Proc.devRef .tc main_v14) = dis2Of a1 := (((main_v14_7_6 m ρ c).trans (main_v14_6_5 m ρ c)).trans (W5_v14 m ρ c))
theorem W9_v14 : W9 m ρ c (Proc.devRef .tc main_v14) = dis2Of a1 := (((main_v14_9_8 m ρ c).trans (main_v14_8_7 m ρ c)).trans (W7_v14 m ρ c))
theorem W6_v1 : W6 m ρ c (Proc.devRef .tc main_v1) = srcOf a1 := (((main_v1_6_5 m ρ c).trans ((main_v1_5_4 m ρ c).trans ((main_v1_4_3 m ρ c).trans ((main_v1_3_2 m ρ c).trans (main_v1_2_1 m ρ c))))).trans (W1_v1 m ρ c))
theorem W8_v1 : W8 m ρ c (Proc.devRef .tc main_v1) = srcOf a1 := (((main_v1_8_7 m ρ c).trans (main_v1_7_6 m ρ c)).trans (W6_v1 m ρ c))
theorem W6_v3 : W6 m ρ c (Proc.devRef .tc main_v3) = dstOf a1 := (((main_v3_6_5 m ρ c).trans ((main_v3_5_4 m ρ c).trans ((main_v3_4_3 m ρ c).trans ((main_v3_3_2 m ρ c).trans (main_v3_2_1 m ρ c))))).trans (W1_v3 m ρ c))
theorem W8_v3 : W8 m ρ c (Proc.devRef .tc main_v3) = dstOf a1 := (((main_v3_8_7 m ρ c).trans (main_v3_7_6 m ρ c)).trans (W6_v3 m ρ c))

/-! ## Region 0: the column sums; then the mean row and the first weights' halves -/

theorem W4_v15 : W4 m ρ c (Proc.devRef .tc main_v15) = Cert.KSpec.G0 a0 := by
  have h := Cert.KernelIdeal.R0.final (V3 m ρ) c
  have e : V3 m ρ c (Pipeline.arrRef spec0 0) = a0 := W3_arg0 m ρ c
  rw [e] at h
  exact (W4_arr m ρ c 1).trans h

theorem W5_v18 : W5 m ρ c (Proc.devRef .tc main_v18) = waOf a2 := by
  have h2 := W4_arg2 m ρ c
  show StableHlo.after hostOps1 (W4 m ρ c) _ = _
  generalize W4 m ρ c = V at h2 ⊢
  after_results
  rw [h2]
  rfl

theorem W5_v20 : W5 m ρ c (Proc.devRef .tc main_v20) = browOf a0 a2 := by
  have h2 := W4_arg2 m ρ c
  have h15 := W4_v15 m ρ c
  show StableHlo.after hostOps1 (W4 m ρ c) _ = _
  generalize W4 m ρ c = V at h2 h15 ⊢
  after_results
  rw [h2, h15]
  rfl

/-! ## Region 1: the scaled first layer; then its rows gathered and added up -/

theorem W6_v21 : W6 m ρ c (Proc.devRef .tc main_v21) = h1pOf a0 a1 a2 := by
  have h := Cert.KernelIdeal.R1.final (V5 m ρ) c
  have e0 : V5 m ρ c (Pipeline.arrRef spec1 0) = a0 := W5_arg0 m ρ c
  have e1 : V5 m ρ c (Pipeline.arrRef spec1 1) = waOf a2 := W5_v18 m ρ c
  have e2 : V5 m ρ c (Pipeline.arrRef spec1 2) = browOf a0 a2 := W5_v20 m ρ c
  have e3 : V5 m ρ c (Pipeline.arrRef spec1 3) = dis2Of a1 := W5_v14 m ρ c
  rw [e0, e1, e2, e3] at h
  exact (W6_arr m ρ c 4).trans h

set_option maxHeartbeats 2000000 in
theorem W7_v32 : W7 m ρ c (Proc.devRef .tc main_v32) = sum1Of a0 a1 a2 := by
  have h21 := W6_v21 m ρ c
  have h1 := W6_v1 m ρ c
  have h3 := W6_v3 m ρ c
  show StableHlo.after hostOps2 (W6 m ρ c) _ = _
  generalize W6 m ρ c = V at h21 h1 h3 ⊢
  after_results
  rw [h21, h1, h3]
  rfl

theorem W7_v33 : W7 m ρ c (Proc.devRef .tc main_v33) = b1rowOf a3 := by
  have h := W6_arg3 m ρ c
  show StableHlo.after hostOps2 (W6 m ρ c) _ = _
  generalize W6 m ρ c = V at h ⊢
  after_results
  rw [h]
  rfl

/-! ## Region 2: the scaled second layer; then its rows gathered and added up -/

theorem W8_v34 : W8 m ρ c (Proc.devRef .tc main_v34) = h2pOf a0 a1 a2 a3 a4 := by
  have h := Cert.KernelIdeal.R2.final (V7 m ρ) c
  have e0 : V7 m ρ c (Pipeline.arrRef spec2 0) = sum1Of a0 a1 a2 := W7_v32 m ρ c
  have e1 : V7 m ρ c (Pipeline.arrRef spec2 1) = dis2Of a1 := W7_v14 m ρ c
  have e2 : V7 m ρ c (Pipeline.arrRef spec2 2) = b1rowOf a3 := W7_v33 m ρ c
  have e3 : V7 m ρ c (Pipeline.arrRef spec2 3) = a4 := W7_arg4 m ρ c
  rw [e0, e1, e2, e3] at h
  exact (W8_arr m ρ c 4).trans h

set_option maxHeartbeats 2000000 in
theorem W9_v44 : W9 m ρ c (Proc.devRef .tc main_v44) = sum2Of a0 a1 a2 a3 a4 := by
  have h34 := W8_v34 m ρ c
  have h1 := W8_v1 m ρ c
  have h3 := W8_v3 m ρ c
  show StableHlo.after hostOps3 (W8 m ρ c) _ = _
  generalize W8 m ρ c = V at h34 h1 h3 ⊢
  after_results
  rw [h34, h1, h3]
  rfl

theorem W9_v45 : W9 m ρ c (Proc.devRef .tc main_v45) = b2rowOf a5 := by
  have h := W8_arg5 m ρ c
  show StableHlo.after hostOps3 (W8 m ρ c) _ = _
  generalize W8 m ρ c = V at h ⊢
  after_results
  rw [h]
  rfl

/-! ## Region 3: the result -/

theorem W10_v46 : W10 m ρ c (Proc.devRef .tc main_v46) = outOf a0 a1 a2 a3 a4 a5 := by
  have h := Cert.KernelIdeal.R3.final (V9 m ρ) c
  have e0 : V9 m ρ c (Pipeline.arrRef spec3 0) = sum2Of a0 a1 a2 a3 a4 := W9_v44 m ρ c
  have e1 : V9 m ρ c (Pipeline.arrRef spec3 1) = dis2Of a1 := W9_v14 m ρ c
  have e2 : V9 m ρ c (Pipeline.arrRef spec3 2) = b2rowOf a5 := W9_v45 m ρ c
  rw [e0, e1, e2] at h
  exact (W10_arr m ρ c 3).trans h

end Cert.KernelIdeal.Chain

end
-- ==== Proof.Params.lean ====
/-
  The argument arrays of the two programs as plain functions of their coordinates, and what an index column means:
  a gather reads the row whose number is the column's entry read signed and clamped into the table; a scatter-add lands
  an update row at the node whose number is the entry read signed, or nowhere if that is no node.
-/
import Idealize.ShloMosaic.PureOps.Ideal
import Idealize.ShloMosaic.Lib.ValueIdx

noncomputable section

open Idealize.ShloMosaic Idealize.ShloMosaic.ValueIdx
open scoped BigOperators

namespace Cert.Params

/-- The node features. -/
def X (a0 : FVec Ideal ⟨2, ![100000, 64]⟩ .f32) (r : Fin 100000) (j : Fin 64) : EReal := a0 (ix2 r j)
/-- The first layer's weights, 128 rows. -/
def Wm (a2 : FVec Ideal ⟨2, ![128, 64]⟩ .f32) (j : Fin 128) (k : Fin 64) : EReal := a2 (ix2 j k)
/-- The first layer's bias. -/
def B1 (a3 : FVec Ideal ⟨1, ![64]⟩ .f32) (k : Fin 64) : EReal := a3 (ix1 k)
/-- The second layer's weights. -/
def Wn (a4 : FVec Ideal ⟨2, ![64, 2]⟩ .f32) (k : Fin 64) (q : Fin 2) : EReal := a4 (ix2 k q)
/-- The second layer's bias. -/
def B2 (a5 : FVec Ideal ⟨1, ![2]⟩ .f32) (q : Fin 2) : EReal := a5 (ix1 q)
/-- The mean of feature column `j`: the column's sum over all nodes divided by the float 100000 (the word 0x47C35000). -/
def μ (a0 : FVec Ideal ⟨2, ![100000, 64]⟩ .f32) (j : Fin 64) : EReal :=
  Ideal.div (∑ r : Fin 100000, a0 (ix2 r j)) (Ideal.ofBits .f32 0x47C35000#32)
/-- The degree scale of a node. -/
def d (dis : FVec Ideal ⟨1, ![100000]⟩ .f32) (v : Fin 100000) : EReal := dis (ix1 v)
/-- The row a gather reads for edge `e`: the column's entry read signed and clamped into `[0, 99999]`. -/
def row (I : IVec ⟨2, ![1600000, 1]⟩ 32) (e : Fin 1600000) : Fin 100000 :=
  ⟨min (I (ix2 e (0 : Fin 1))).toInt.toNat (100000 - 1), by omega⟩
/-- Edge `e` lands at node `v` in a scatter-add: the column's entry read signed is `v`. -/
def hit (I : IVec ⟨2, ![1600000, 1]⟩ 32) (e : Fin 1600000) (v : Fin 100000) : Prop :=
  (I (ix2 e (0 : Fin 1))).toInt = (v.val : Int)

instance (I : IVec ⟨2, ![1600000, 1]⟩ 32) (e : Fin 1600000) (v : Fin 100000) : Decidable (hit I e v) := by
  unfold hit; infer_instance

end Cert.Params

end
-- ==== Proof.LibScaledSum.lean ====
/-
  A multiplier that is a nonnegative real goes through a finite sum of extended reals, and the law built on it for a
  graph-convolution layer: scaling each selected term before the sum and the sum after it is the sum of the selected
  terms times both scales.  (On the extended reals multiplication does not distribute over a sum in general: an
  infinite or a negative multiplier meets `⊤ + ⊥`.)  Also: a sum over 128 columns is the sum over the first 64 plus
  the sum over the last 64.
-/
import Mathlib.Data.EReal.Inv
import Mathlib.Algebra.BigOperators.Fin

open scoped BigOperators

namespace Cert.Law

/-- A nonnegative real multiplier goes through a finite sum of extended reals. -/
theorem mul_sum_of_nonneg_of_ne_top {E : Type*} (S : Finset E) (f : E → EReal) {r : EReal} (hr : 0 ≤ r) (hr' : r ≠ ⊤) :
    r * ∑ e ∈ S, f e = ∑ e ∈ S, r * f e := by
  classical
  induction S using Finset.induction_on with
  | empty => simp
  | insert a S ha ih =>
    rw [Finset.sum_insert ha, Finset.sum_insert ha, EReal.left_distrib_of_nonneg_of_ne_top hr hr', ih]

/-- The layer law: scaling each selected term by `s e` before the sum and the sum by `r` after it is the sum of the
    selected terms times `s e · t e`, when `t e = r` on the selected edges and `r` is a nonnegative real. -/
theorem scaled_sum {E : Type*} [Fintype E] (P : E → Prop) [DecidablePred P] (a s t : E → EReal) {r : EReal}
    (hr : 0 ≤ r) (hr' : r ≠ ⊤) (ht : ∀ e, P e → t e = r) :
    r * (0 + ∑ e, if P e then a e * s e else 0) = 0 + ∑ e, if P e then a e * (s e * t e) else 0 := by
  rw [zero_add, zero_add, mul_sum_of_nonneg_of_ne_top _ _ hr hr']
  refine Finset.sum_congr rfl fun e _ => ?_
  by_cases h : P e
  · rw [if_pos h, if_pos h, ht e h, mul_comm r, mul_assoc]
  · rw [if_neg h, if_neg h, mul_zero]

/-- A sum over 128 columns split into its two halves. -/
theorem sum_halves (f : Fin 128 → EReal) :
    ∑ k : Fin 128, f k = ∑ k : Fin 64, f (Fin.castAdd 64 k) + ∑ k : Fin 64, f (Fin.natAdd 64 k) :=
  Fin.sum_univ_add (a := 64) (b := 64) f

end Cert.Law
-- ==== Proof.Net.lean ====
/-
  The two-layer graph network of both programs over plain index types.  Nodes `Fin 100000`, edges `Fin 1600000`; an edge
  `e` reads its source row `gs e` and lands at the node `v` with `hit e v`; `d` is the degree scale of a node and
  `gd e` the row at which the reference reads the scale of the edge's end.  The reference multiplies each message by
  `d (gs e) · d (gd e)` on the edge; the kernel scales rows by `d` before the edges are summed and the sums by `d`
  after.  They agree because `d` is a nonnegative real and `gd e` is the node the edge lands at.
-/
import proofs.«139473_j72146860638719_2_alg».proof.Proof.LibScaledSum

noncomputable section

open scoped BigOperators

namespace Cert.Net

variable (X : Fin 100000 → Fin 64 → EReal) (Wm : Fin 128 → Fin 64 → EReal) (B1 : Fin 64 → EReal)
  (Wn : Fin 64 → Fin 2 → EReal) (B2 : Fin 2 → EReal) (μ : Fin 64 → EReal) (d : Fin 100000 → EReal)
  (gs gd : Fin 1600000 → Fin 100000) (hit : Fin 1600000 → Fin 100000 → Prop) [∀ e v, Decidable (hit e v)]

/-- The first linear layer as the reference has it: the row `[x u, μ]` of 128 entries against the 128 × 64 weights. -/
def linR (u : Fin 100000) (k : Fin 64) : EReal :=
  ∑ j : Fin 128, (Fin.addCases (X u) μ j : EReal) * Wm j k

/-- The first linear layer as the kernel has it: the feature half plus the row `μ · (lower half of the weights)`. -/
def linK (u : Fin 100000) (k : Fin 64) : EReal :=
  ∑ j : Fin 64, X u j * Wm (Fin.castAdd 64 j) k + ∑ j : Fin 64, μ j * Wm (Fin.natAdd 64 j) k

theorem linR_eq_linK (u : Fin 100000) (k : Fin 64) : linR X Wm μ u k = linK X Wm μ u k := by
  unfold linR linK
  rw [Cert.Law.sum_halves]
  simp only [Fin.addCases_left, Fin.addCases_right]

/-- One aggregation on the reference's side: messages scaled on the edge. -/
def aggR {C : Type} (h : Fin 100000 → C → EReal) (v : Fin 100000) (q : C) : EReal :=
  0 + ∑ e : Fin 1600000, if hit e v then h (gs e) q * (d (gs e) * d (gd e)) else 0

/-- One aggregation on the kernel's side: rows scaled before, the sum scaled after. -/
def aggK {C : Type} (h : Fin 100000 → C → EReal) (v : Fin 100000) (q : C) : EReal :=
  d v * (0 + ∑ e : Fin 1600000, if hit e v then h (gs e) q * d (gs e) else 0)

theorem aggK_eq_aggR {C : Type} (hd : ∀ v, 0 ≤ d v ∧ d v ≠ ⊤) (hgd : ∀ e v, hit e v → gd e = v)
    (h : Fin 100000 → C → EReal) (v : Fin 100000) (q : C) :
    aggK d gs hit h v q = aggR d gs gd hit h v q := by
  unfold aggK aggR
  exact Cert.Law.scaled_sum (fun e => hit e v) (fun e => h (gs e) q) (fun e => d (gs e)) (fun e => d (gd e))
    (hd v).1 (hd v).2 (fun e he => by rw [hgd e v he])

/-- The hidden activations. -/
def hidR (u : Fin 100000) (k : Fin 64) : EReal :=
  max (aggR d gs gd hit (linR X Wm μ) u k + B1 k) 0

def hidK (u : Fin 100000) (k : Fin 64) : EReal :=
  max (aggK d gs hit (linK X Wm μ) u k + B1 k) 0

/-- The second linear layer of a hidden row. -/
def lin2 (h : Fin 100000 → Fin 64 → EReal) (u : Fin 100000) (q : Fin 2) : EReal :=
  ∑ k : Fin 64, h u k * Wn k q

/-- The reference's result. -/
def outR (v : Fin 100000) (q : Fin 2) : EReal :=
  aggR d gs gd hit (lin2 Wn (hidR X Wm B1 μ d gs gd hit)) v q + B2 q

/-- The kernel's result. -/
def outK (v : Fin 100000) (q : Fin 2) : EReal :=
  aggK d gs hit (lin2 Wn (hidK X Wm B1 μ d gs hit)) v q + B2 q

theorem hidK_eq_hidR (hd : ∀ v, 0 ≤ d v ∧ d v ≠ ⊤) (hgd : ∀ e v, hit e v → gd e = v) :
    hidK X Wm B1 μ d gs hit = hidR X Wm B1 μ d gs gd hit := by
  funext u k
  unfold hidK hidR
  rw [aggK_eq_aggR d gs gd hit hd hgd]
  have : linK X Wm μ = linR X Wm μ := by funext u k; exact (linR_eq_linK X Wm μ u k).symm
  rw [this]

theorem outK_eq_outR (hd : ∀ v, 0 ≤ d v ∧ d v ≠ ⊤) (hgd : ∀ e v, hit e v → gd e = v) (v : Fin 100000) (q : Fin 2) :
    outK X Wm B1 Wn B2 μ d gs hit v q = outR X Wm B1 Wn B2 μ d gs gd hit v q := by
  unfold outK outR
  rw [aggK_eq_aggR d gs gd hit hd hgd, hidK_eq_hidR X Wm B1 μ d gs gd hit hd hgd]

end Cert.Net

end
-- ==== Proof.LibGatherRows.lean ====
/-
  A gather of whole rows of a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a gather of whole rows: operand `[N, C]`, start indices `[E, 1]` (one row number per
    result row), result `[E, C]`; the row axis collapsed, the column axis the one offset axis. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of whole rows read at `(e, c)` is the table at column `c` of the row whose number is the start index
    of result row `e`, read signed and clamped into `[0, N − 1]`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGather N C E wf) x idx (ix2 e c)
      = x (ix2 (⟨min (idx (ix2 e (0 : Fin 1))).toInt.toNat (N - 1), by omega⟩ : Fin N) c) := by
  have h0 : (rowsGather N C E wf).start (ix2 e c) idx 0 + (rowsGather N C E wf).batchCoord (ix2 e c) 0
      + (rowsGather N C E wf).offCoord (ix2 e c) 0 = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl)]
    have hsi : (rowsGather N C E wf).siIdx (ix2 e c) ⟨List.idxOf (0 : Fin 2) (rowsGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsGather N C E wf).start (ix2 e c) idx 1 + (rowsGather N C E wf).batchCoord (ix2 e c) 1
      + (rowsGather N C E wf).offCoord (ix2 e c) 1 = c.val := by
    rw [GatherDims.batchCoord_eq_zero _ _ _ List.not_mem_nil]
    have hs : (rowsGather N C E wf).start (ix2 e c) idx 1 = 0 := by
      unfold GatherDims.start
      rw [dif_neg (show ¬ ((1 : Fin 2) ∈ ([0] : List (Fin 2))) from by decide)]
    rw [hs, Nat.add_zero, Nat.zero_add]
    rfl
  unfold Host.gather
  congr 1
  funext a
  refine Fin.ext ?_
  match a with
  | ⟨0, _⟩ => exact h0
  | ⟨1, _⟩ => exact h1

end Cert.LibRows

end
-- ==== Proof.LibScatterRows.lean ====
/-
  A float scatter-add of whole rows into a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a scatter of whole rows: operand `[N, C]`, scatter indices `[E, 1]` (one row number per
    update row), updates `[E, C]`; the row axis inserted, the column axis the one window axis. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coordinates
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the row number of update row `e`, read signed. -/
theorem rowsScatter_start_row :
    (rowsScatter N C E wf).start (ix2 e c') idx 0 = (idx (ix2 e (0 : Fin 1))).toInt := by
  unfold ScatterDims.start
  rw [dif_pos (show (0 : Fin 2) ∈ (rowsScatter N C E wf).scatterDimsToOperandDims from List.mem_singleton.mpr rfl)]
  have hsi : (rowsScatter N C E wf).siIdx (ix2 e c') ⟨List.idxOf (0 : Fin 2) (rowsScatter N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
theorem rowsScatter_start_col : (rowsScatter N C E wf).start (ix2 e c') idx 1 = 0 := by
  unfold ScatterDims.start
  rw [dif_neg (show ¬ ((1 : Fin 2) ∈ ([0] : List (Fin 2))) from by decide)]

/-- On the row axis the window coordinate is `0`. -/
theorem rowsScatter_window_row : (rowsScatter N C E wf).window (ix2 e c') 0 = 0 := by
  unfold ScatterDims.window
  rw [dif_neg (show ¬ ((0 : Fin 2) ∈ (rowsScatter N C E wf).sKept) from
    (show ¬ ((0 : Fin 2) ∈ (List.finRange 2).filter (fun a => a ∉ ([0] : List (Fin 2)))) from by decide))]

/-- On the column axis the window coordinate is the update entry's column. -/
theorem rowsScatter_window_col : (rowsScatter N C E wf).window (ix2 e c') 1 = c'.val := by
  unfold ScatterDims.window
  rw [dif_pos (show (1 : Fin 2) ∈ (rowsScatter N C E wf).sKept from
    (show (1 : Fin 2) ∈ (List.finRange 2).filter (fun a => a ∉ ([0] : List (Fin 2))) from by decide))]
  rfl

end Coordinates

/-- Update entry `(e, c')` lands at operand entry `(n, c)` exactly when the row number of update row `e`, read signed
    and not clamped, is `n` and the columns agree. -/
theorem rowsScatter_resultIdx_eq_some_iff {N C E w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowsScatter N C E wf).resultIdx? (ix2 e c') idx = some (ix2 n c) ↔ (idx (ix2 e (0 : Fin 1))).toInt = (n.val : Int) ∧ c' = c := by
  have hs0 := rowsScatter_start_row wf idx e c'
  have hs1 := rowsScatter_start_col wf idx e c'
  have hw0 := rowsScatter_window_row wf e c'
  have hw1 := rowsScatter_window_col wf e c'
  have hn := n.isLt
  have hc := c.isLt
  have hc' := c'.isLt
  unfold ScatterDims.resultIdx?
  constructor
  · intro h
    split at h
    · rename_i hin
      have h' := Option.some.inj h
      have e0 : ((rowsScatter N C E wf).start (ix2 e c') idx 0 + ((rowsScatter N C E wf).window (ix2 e c') 0 : Nat)).toNat = n.val :=
        congrArg (fun f => (f 0).val) h'
      have e1 : ((rowsScatter N C E wf).start (ix2 e c') idx 1 + ((rowsScatter N C E wf).window (ix2 e c') 1 : Nat)).toNat = c.val :=
        congrArg (fun f => (f 1).val) h'
      have p0 := (hin 0).1
      rw [hs0, hw0] at e0 p0
      rw [hs1, hw1] at e1
      refine ⟨by omega, Fin.ext (by omega)⟩
    · exact absurd h (by simp)
  · rintro ⟨h1, rfl⟩
    have hin : ∀ a, 0 ≤ (rowsScatter N C E wf).start (ix2 e c') idx a + ((rowsScatter N C E wf).window (ix2 e c') a : Nat)
        ∧ (rowsScatter N C E wf).start (ix2 e c') idx a + ((rowsScatter N C E wf).window (ix2 e c') a : Nat)
          < ((⟨2, ![N, C]⟩ : Shape).size a : Nat) := by
      intro a
      match a with
      | ⟨0, _⟩ =>
        show 0 ≤ (rowsScatter N C E wf).start (ix2 e c') idx 0 + ((rowsScatter N C E wf).window (ix2 e c') 0 : Nat)
          ∧ (rowsScatter N C E wf).start (ix2 e c') idx 0 + ((rowsScatter N C E wf).window (ix2 e c') 0 : Nat) < (N : Int)
        rw [hs0, hw0, h1]; omega
      | ⟨1, _⟩ =>
        show 0 ≤ (rowsScatter N C E wf).start (ix2 e c') idx 1 + ((rowsScatter N C E wf).window (ix2 e c') 1 : Nat)
          ∧ (rowsScatter N C E wf).start (ix2 e c') idx 1 + ((rowsScatter N C E wf).window (ix2 e c') 1 : Nat) < (C : Int)
        rw [hs1, hw1]; omega
    rw [dif_pos hin]
    congr 1
    funext a
    refine Fin.ext ?_
    match a with
    | ⟨0, _⟩ =>
      show ((rowsScatter N C E wf).start (ix2 e c') idx 0 + ((rowsScatter N C E wf).window (ix2 e c') 0 : Nat)).toNat = n.val
      rw [hs0, hw0, h1]; omega
    | ⟨1, _⟩ =>
      show ((rowsScatter N C E wf).start (ix2 e c') idx 1 + ((rowsScatter N C E wf).window (ix2 e c') 1 : Nat)).toNat = c'.val
      rw [hs1, hw1]; omega

/-- At the ideal instance the scatter-add of whole rows read at `(n, c)` is the operand's entry plus the sum, over the
    update rows whose row number (read signed, not clamped) is `n`, of the update's entry in column `c`; an update
    row whose number is outside `[0, N)` lands nowhere. -/
theorem scatterAdd_rows_apply {N C E w : Nat} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowsScatter N C E wf) x idx upd (ix2 n c)
      = x (ix2 n c) + ∑ e : Fin E, if (idx (ix2 e (0 : Fin 1))).toInt = (n.val : Int) then upd (ix2 e c) else 0 := by
  change x (ix2 n c) + _ = _
  congr 1
  rw [Finset.sum_filter, sum_idx2]
  refine Finset.sum_congr rfl fun e _ => ?_
  simp only [rowsScatter_resultIdx_eq_some_iff]
  by_cases h : (idx (ix2 e (0 : Fin 1))).toInt = (n.val : Int)
  · simp only [h, true_and, if_true]
    rw [Finset.sum_ite_eq' Finset.univ c (fun c' => upd (ix2 e c'))]
    simp
  · simp only [h, false_and, if_false]
    exact Finset.sum_const_zero

end Cert.LibRows

end
-- ==== Proof.KernelOut.lean ====
/-
  The idealized kernel program's result, read at one entry, is the network in the kernel's arrangement.

  Every intermediate array of the program is a pure term of the six argument arrays.  Read at an entry by coordinates:
  the degree scale's column holds the scale of node `u` in row `u`; the mean row holds the mean of feature column `j`;
  the two halves of the first weights are rows `0 … 63` and `64 … 127`; the bias row of the first layer is the mean
  row times the lower half; the scaled first layer at `(u, k)` is the first linear layer of node `u` times the node's
  scale; a gather by source followed by a scatter-add by destination, read at `(v, k)`, is the sum over the edges that
  land at `v` of the gathered row's entry `k`; the rectified hidden row, the second layer and the last scaling and bias
  follow entry by entry.  Entry `(v, q)` of the result depends on the edges landing at `v`, on the edges landing at
  their sources, and on the feature rows of those edges' sources.
-/
import proofs.«139473_j72146860638719_2_alg».proof.Proof.KernelTerms
import proofs.«139473_j72146860638719_2_alg».proof.Proof.Params
import proofs.«139473_j72146860638719_2_alg».proof.Proof.Net
import proofs.«139473_j72146860638719_2_alg».proof.Proof.LibRank2
import proofs.«139473_j72146860638719_2_alg».proof.Proof.LibKeepdims
import proofs.«139473_j72146860638719_2_alg».proof.Proof.LibGatherRows
import proofs.«139473_j72146860638719_2_alg».proof.Proof.LibScatterRows
import Idealize.ShloMosaic.Lib.ValueLayout
import Idealize.ShloMosaic.PureOps.Ideal.Laws

noncomputable section

open Idealize.ShloMosaic Idealize.ShloMosaic.ValueIdx
open scoped BigOperators

namespace Cert.KernelIdeal.KOut

open Cert.KernelIdeal Cert.KernelIdeal.Gen

/-! ## The small arrays -/

/-- A scalar constant broadcast to any shape reads, everywhere, the extended real its word encodes. -/
theorem splat_apply {t : Shape} (h : S_.BroadcastsInDim t (![] : Fin 0 → Fin t.rank)) (w : BitVec 32) (i : t.Idx) :
    broadcastInDim t ![] h (constant (F := Ideal) S_ .f32 w) i = Ideal.ofBits .f32 w :=
  broadcastInDim_apply (![] : Fin 0 → Fin t.rank) h (constant (F := Ideal) S_ .f32 w) i ix0 (fun a => a.elim0)

/-- Row `u` of the degree scale's column is the scale of node `u`. -/
theorem dis2_apply (a1 : IVec S2x1600000 32) (u : Fin 100000) (z : Fin 1) :
    Terms.dis2Of a1 (ix2 u z) = Cert.Params.d (Terms.disOf a1) u :=
  Cert.Keepdims.shapeCast_a_a1_apply (Terms.disOf a1) shapeCasts_S100000_S100000x1 u z

/-- Entry `j` of the mean row is the mean of feature column `j`. -/
theorem mean_apply (a0 : FVec Ideal S100000x64 .f32) (z : Fin 1) (j : Fin 64) :
    Terms.meanOf a0 (ix2 z j) = Cert.Params.μ a0 j := by
  show Ideal.div (∑ r : Fin 100000, a0 (ix2 r j))
      (broadcastInDim S1x64 ![] bcast_S_S1x64 (constant (F := Ideal) S_ .f32 0x47C35000#32) (ix2 z j))
    = Ideal.div (∑ r : Fin 100000, a0 (ix2 r j)) (Ideal.ofBits .f32 0x47C35000#32)
  rw [splat_apply]

/-- The upper half of the first weights: rows `0 … 63`. -/
theorem wa_apply (a2 : FVec Ideal S128x64 .f32) (j k : Fin 64) :
    Terms.waOf a2 (ix2 j k) = Cert.Params.Wm a2 (Fin.castAdd 64 j) k :=
  slice2_axis0_apply 0 a2 slices_S128x64_S64x64_0_0 j k (Fin.castAdd 64 j) (Nat.zero_add _).symm

/-- The lower half of the first weights: rows `64 … 127`. -/
theorem wb_apply (a2 : FVec Ideal S128x64 .f32) (j k : Fin 64) :
    Terms.wbOf a2 (ix2 j k) = Cert.Params.Wm a2 (Fin.natAdd 64 j) k :=
  slice2_axis0_apply 64 a2 slices_S128x64_S64x64_64_0 j k (Fin.natAdd 64 j) rfl

/-- The bias row of the first layer: the mean row times the lower half of the weights. -/
theorem brow_apply (a0 : FVec Ideal S100000x64 .f32) (a2 : FVec Ideal S128x64 .f32) (z : Fin 1) (k : Fin 64) :
    Terms.browOf a0 a2 (ix2 z k) = ∑ j : Fin 64, Cert.Params.μ a0 j * Cert.Params.Wm a2 (Fin.natAdd 64 j) k := by
  unfold Terms.browOf
  refine (Cert.Rank2.dotGeneral_plain_apply (M := 1) (K := 64) (N := 64) dot_S1x64_S64x64_S1x64_1_0_0_1_n_n_wf none
    (Terms.meanOf a0) (Terms.wbOf a2) z k).trans ?_
  exact Finset.sum_congr rfl fun j _ => congrArg₂ (· * ·) (mean_apply a0 z j) (wb_apply a2 j k)

/-- The first bias as a row. -/
theorem b1row_apply (a3 : FVec Ideal S64 .f32) (z : Fin 1) (k : Fin 64) :
    Terms.b1rowOf a3 (ix2 z k) = Cert.Params.B1 a3 k :=
  shapeCast_a_1a_apply a3 shapeCasts_S64_S1x64 z k

/-- The second bias as a row. -/
theorem b2row_apply (a5 : FVec Ideal S2 .f32) (z : Fin 1) (q : Fin 2) :
    Terms.b2rowOf a5 (ix2 z q) = Cert.Params.B2 a5 q :=
  shapeCast_a_1a_apply a5 shapeCasts_S2_S1x2 z q

/-! ## The first layer -/

/-- The scaled first layer at `(u, k)`: the first linear layer of node `u` times the node's scale. -/
theorem h1p_apply (a0 : FVec Ideal S100000x64 .f32) (a1 : IVec S2x1600000 32) (a2 : FVec Ideal S128x64 .f32)
    (u : Fin 100000) (k : Fin 64) :
    Terms.h1pOf a0 a1 a2 (ix2 u k)
      = Cert.Net.linK (Cert.Params.X a0) (Cert.Params.Wm a2) (Cert.Params.μ a0) u k * Cert.Params.d (Terms.disOf a1) u := by
  show (∑ j : Fin 64, a0 (ix2 u j) * Terms.waOf a2 (ix2 j k) + Terms.browOf a0 a2 (ix2 (0 : Fin 1) k))
      * Terms.dis2Of a1 (ix2 u (0 : Fin 1))
    = (∑ j : Fin 64, a0 (ix2 u j) * Cert.Params.Wm a2 (Fin.castAdd 64 j) k
        + ∑ j : Fin 64, Cert.Params.μ a0 j * Cert.Params.Wm a2 (Fin.natAdd 64 j) k) * Cert.Params.d (Terms.disOf a1) u
  rw [brow_apply a0 a2 0 k, dis2_apply a1 u 0,
    Finset.sum_congr rfl fun j _ => congrArg (a0 (ix2 u j) * ·) (wa_apply a2 j k)]

/-! ## Gathering rows by source and adding them up by destination -/

/-- Any table of 64-entry rows, gathered at a column of row numbers, widened, and added up into the zero table at a
    column of row numbers, reads at `(u, k)` the sum, over the update rows that land at `u`, of entry `k` of the row
    the gather read for them. -/
theorem rowsum64_apply (x : FVec Ideal S100000x64 .bf16) (Is Ig : IVec S1600000x1 32) (u : Fin 100000) (k : Fin 64) :
    Host.scatterAdd scatter_S100000x64_S1600000x1_S1600000x64_1_0_0_1
        (broadcastInDim S100000x64 ![] bcast_S_S100000x64 (constant (F := Ideal) S_ .f32 0x00000000#32)) Is
        (extf .f32 (Host.gather gather_S100000x64_S1600000x1_S1600000x64_1_0_n_n_0_1_164 x Ig) bitsLt_bf16_f32) (ix2 u k)
      = 0 + ∑ e : Fin 1600000, if Cert.Params.hit Is e u then x (ix2 (Cert.Params.row Ig e) k) else 0 := by
  refine (Cert.LibRows.scatterAdd_rows_apply (N := 100000) (C := 64) (E := 1600000)
    scatter_S100000x64_S1600000x1_S1600000x64_1_0_0_1_wf _ Is _ u k).trans ?_
  refine congrArg₂ (· + ·) ((splat_apply bcast_S_S100000x64 0x00000000#32 (ix2 u k)).trans Ideal.ofBits_zero_f32)
    (Finset.sum_congr rfl fun e _ => if_congr Iff.rfl ?_ rfl)
  exact (extf_apply (Host.gather gather_S100000x64_S1600000x1_S1600000x64_1_0_n_n_0_1_164 x Ig) bitsLt_bf16_f32 (ix2 e k)).trans
    (Cert.LibRows.gather_rows_apply (N := 100000) (C := 64) (E := 1600000) (Nat.succ_pos 99999)
      gather_S100000x64_S1600000x1_S1600000x64_1_0_n_n_0_1_164_wf x Ig e k)

/-- The same for a table of 2-entry rows, with no widening. -/
theorem rowsum2_apply (x : FVec Ideal S100000x2 .f32) (Is Ig : IVec S1600000x1 32) (v : Fin 100000) (q : Fin 2) :
    Host.scatterAdd scatter_S100000x2_S1600000x1_S1600000x2_1_0_0_1
        (broadcastInDim S100000x2 ![] bcast_S_S100000x2 (constant (F := Ideal) S_ .f32 0x00000000#32)) Is
        (Host.gather gather_S100000x2_S1600000x1_S1600000x2_1_0_n_n_0_1_12 x Ig) (ix2 v q)
      = 0 + ∑ e : Fin 1600000, if Cert.Params.hit Is e v then x (ix2 (Cert.Params.row Ig e) q) else 0 := by
  refine (Cert.LibRows.scatterAdd_rows_apply (N := 100000) (C := 2) (E := 1600000)
    scatter_S100000x2_S1600000x1_S1600000x2_1_0_0_1_wf _ Is _ v q).trans ?_
  refine congrArg₂ (· + ·) ((splat_apply bcast_S_S100000x2 0x00000000#32 (ix2 v q)).trans Ideal.ofBits_zero_f32)
    (Finset.sum_congr rfl fun e _ => if_congr Iff.rfl ?_ rfl)
  exact Cert.LibRows.gather_rows_apply (N := 100000) (C := 2) (E := 1600000) (Nat.succ_pos 99999)
    gather_S100000x2_S1600000x1_S1600000x2_1_0_n_n_0_1_12_wf x Ig e q

/-- The first layer's rows gathered by source and added up by destination, at `(u, k)`: the sum over the edges landing
    at `u` of entry `k` of the source's row. -/
theorem sum1_apply (a0 : FVec Ideal S100000x64 .f32) (a1 : IVec S2x1600000 32) (a2 : FVec Ideal S128x64 .f32)
    (u : Fin 100000) (k : Fin 64) :
    Terms.sum1Of a0 a1 a2 (ix2 u k)
      = 0 + ∑ e : Fin 1600000, if Cert.Params.hit (Terms.scatterCol (Terms.dstOf a1)) e u
          then Terms.h1pOf a0 a1 a2 (ix2 (Cert.Params.row (Terms.gatherCol (Terms.srcOf a1)) e) k) else 0 := by
  unfold Terms.sum1Of
  exact rowsum64_apply (Terms.h1pOf a0 a1 a2) (Terms.scatterCol (Terms.dstOf a1)) (Terms.gatherCol (Terms.srcOf a1)) u k

/-- The rectified hidden row of node `u`. -/
theorem hid_apply (a0 : FVec Ideal S100000x64 .f32) (a1 : IVec S2x1600000 32) (a2 : FVec Ideal S128x64 .f32)
    (a3 : FVec Ideal S64 .f32) (u : Fin 100000) (k : Fin 64) :
    Cert.KSpec.hid (Terms.sum1Of a0 a1 a2) (Terms.dis2Of a1) (Terms.b1rowOf a3) u k
      = Cert.Net.hidK (Cert.Params.X a0) (Cert.Params.Wm a2) (Cert.Params.B1 a3) (Cert.Params.μ a0)
          (Cert.Params.d (Terms.disOf a1)) (Cert.Params.row (Terms.gatherCol (Terms.srcOf a1)))
          (Cert.Params.hit (Terms.scatterCol (Terms.dstOf a1))) u k := by
  unfold Cert.KSpec.hid Cert.Net.hidK Cert.Net.aggK
  rw [dis2_apply a1 u 0, sum1_apply a0 a1 a2 u k, b1row_apply a3 0 k]
  simp only [h1p_apply]

/-! ## The second layer -/

/-- The scaled second layer at `(u, q)`: the second linear layer of node `u`'s hidden row times the node's scale. -/
theorem h2p_apply (a0 : FVec Ideal S100000x64 .f32) (a1 : IVec S2x1600000 32) (a2 : FVec Ideal S128x64 .f32)
    (a3 : FVec Ideal S64 .f32) (a4 : FVec Ideal S64x2 .f32) (u : Fin 100000) (q : Fin 2) :
    Terms.h2pOf a0 a1 a2 a3 a4 (ix2 u q)
      = Cert.Net.lin2 (Cert.Params.Wn a4)
          (Cert.Net.hidK (Cert.Params.X a0) (Cert.Params.Wm a2) (Cert.Params.B1 a3) (Cert.Params.μ a0)
            (Cert.Params.d (Terms.disOf a1)) (Cert.Params.row (Terms.gatherCol (Terms.srcOf a1)))
            (Cert.Params.hit (Terms.scatterCol (Terms.dstOf a1)))) u q
        * Cert.Params.d (Terms.disOf a1) u := by
  show (∑ k : Fin 64, Cert.KSpec.hid (Terms.sum1Of a0 a1 a2) (Terms.dis2Of a1) (Terms.b1rowOf a3) u k * a4 (ix2 k q))
      * Terms.dis2Of a1 (ix2 u (0 : Fin 1)) = _
  unfold Cert.Net.lin2 Cert.Params.Wn
  rw [dis2_apply a1 u 0,
    Finset.sum_congr rfl fun k _ => congrArg (· * a4 (ix2 k q)) (hid_apply a0 a1 a2 a3 u k)]

/-- The second layer's rows gathered by source and added up by destination, at `(v, q)`. -/
theorem sum2_apply (a0 : FVec Ideal S100000x64 .f32) (a1 : IVec S2x1600000 32) (a2 : FVec Ideal S128x64 .f32)
    (a3 : FVec Ideal S64 .f32) (a4 : FVec Ideal S64x2 .f32) (v : Fin 100000) (q : Fin 2) :
    Terms.sum2Of a0 a1 a2 a3 a4 (ix2 v q)
      = 0 + ∑ e : Fin 1600000, if Cert.Params.hit (Terms.scatterCol (Terms.dstOf a1)) e v
          then Terms.h2pOf a0 a1 a2 a3 a4 (ix2 (Cert.Params.row (Terms.gatherCol (Terms.srcOf a1)) e) q) else 0 := by
  unfold Terms.sum2Of
  exact rowsum2_apply (Terms.h2pOf a0 a1 a2 a3 a4) (Terms.scatterCol (Terms.dstOf a1)) (Terms.gatherCol (Terms.srcOf a1)) v q

/-! ## The result -/

/-- Entry `(v, q)` of the program's result is the network's output for node `v`, in the kernel's arrangement. -/
theorem out_apply (a0 : FVec Ideal S100000x64 .f32) (a1 : IVec S2x1600000 32) (a2 : FVec Ideal S128x64 .f32)
    (a3 : FVec Ideal S64 .f32) (a4 : FVec Ideal S64x2 .f32) (a5 : FVec Ideal S2 .f32) (v : Fin 100000) (q : Fin 2) :
    Terms.outOf a0 a1 a2 a3 a4 a5 (ix2 v q)
      = Cert.Net.outK (Cert.Params.X a0) (Cert.Params.Wm a2) (Cert.Params.B1 a3) (Cert.Params.Wn a4) (Cert.Params.B2 a5)
          (Cert.Params.μ a0) (Cert.Params.d (Terms.disOf a1)) (Cert.Params.row (Terms.gatherCol (Terms.srcOf a1)))
          (Cert.Params.hit (Terms.scatterCol (Terms.dstOf a1))) v q := by
  show Terms.dis2Of a1 (ix2 v (0 : Fin 1)) * Terms.sum2Of a0 a1 a2 a3 a4 (ix2 v q) + Terms.b2rowOf a5 (ix2 (0 : Fin 1) q) = _
  unfold Cert.Net.outK Cert.Net.aggK
  rw [dis2_apply a1 v 0, sum2_apply a0 a1 a2 a3 a4 v q, b2row_apply a5 0 q]
  simp only [h2p_apply]

end Cert.KernelIdeal.KOut

end
-- ==== Proof.LibGatherVec.lean ====
/-
  A gather of single entries of a vector at a column of positions, read at an entry.
-/
import Idealize.ShloMosaic.PureOps.Ideal
import Idealize.ShloMosaic.Lib.ValueIdx

noncomputable section

open Idealize.ShloMosaic Idealize.ShloMosaic.ValueIdx
open scoped BigOperators

namespace Cert.LibVec

/-- The dimension numbers of a gather of single entries of a vector: operand `[N]`, start indices `[E, 1]` (one
    position per result entry), result `[E]`; the operand's one axis collapsed, so the result has no offset axis. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at `e` is the vector at the position that is the start index of result entry `e`, read signed
    and clamped into `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 (⟨min (idx (ix2 e (0 : Fin 1))).toInt.toNat (N - 1), by omega⟩ : Fin N)) := by
  unfold Host.gather
  congr 1
  funext a
  -- the operand has one axis, so there is one coordinate to compare
  obtain rfl : a = 0 := Subsingleton.elim _ _
  refine Fin.ext ?_
  show (vecGather N E wf).start (ix1 e) idx 0 + (vecGather N E wf).batchCoord (ix1 e) 0
    + (vecGather N E wf).offCoord (ix1 e) 0 = _
  -- no batching axis, and the one axis is collapsed: only the clamped start remains
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  -- the start index of result entry `e` is read at row `e`, column `0` of the index column
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibVec

end
-- ==== Proof.LibScatterVec.lean ====
/-
  A float scatter-add of single entries into a vector at a column of positions, read at an entry.
-/
import Idealize.ShloMosaic.PureOps.Ideal
import Idealize.ShloMosaic.Lib.ValueIdx

noncomputable section

open Idealize.ShloMosaic Idealize.ShloMosaic.ValueIdx
open scoped BigOperators

namespace Cert.LibVec

/-- A vector's index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries into a vector: operand `[N]`, scatter indices `[E, 1]` (one
    position per update entry), updates `[E]`; the operand's one axis inserted, so the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update entry `e` starts at the position of update entry `e`, read signed. -/
theorem vecScatter_start :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate on it is `0`. -/
theorem vecScatter_window : (vecScatter N E wf).window (ix1 e) 0 = 0 := by
  unfold ScatterDims.window
  rw [dif_neg (show ¬ ((0 : Fin 1) ∈ (vecScatter N E wf).sKept) from
    (show ¬ ((0 : Fin 1) ∈ (List.finRange 1).filter (fun a => a ∉ ([0] : List (Fin 1)))) from by decide))]

end Coordinates

/-- Update entry `e` lands at operand entry `n` exactly when the position of update entry `e`, read signed and not
    clamped, is `n`. -/
theorem vecScatter_resultIdx_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  have hs := vecScatter_start wf idx e
  have hw := vecScatter_window wf e
  have hn := n.isLt
  unfold ScatterDims.resultIdx?
  constructor
  · intro h
    split at h
    · rename_i hin
      have h' := Option.some.inj h
      have e0 : ((vecScatter N E wf).start (ix1 e) idx 0 + ((vecScatter N E wf).window (ix1 e) 0 : Nat)).toNat = n.val :=
        congrArg (fun f => (f 0).val) h'
      have p0 := (hin 0).1
      rw [hs, hw] at e0 p0
      omega
    · exact absurd h (by simp)
  · intro h1
    have hin : ∀ a, 0 ≤ (vecScatter N E wf).start (ix1 e) idx a + ((vecScatter N E wf).window (ix1 e) a : Nat)
        ∧ (vecScatter N E wf).start (ix1 e) idx a + ((vecScatter N E wf).window (ix1 e) a : Nat)
          < ((⟨1, ![N]⟩ : Shape).size a : Nat) := by
      intro a
      obtain rfl : a = 0 := Subsingleton.elim _ _
      show 0 ≤ (vecScatter N E wf).start (ix1 e) idx 0 + ((vecScatter N E wf).window (ix1 e) 0 : Nat)
        ∧ (vecScatter N E wf).start (ix1 e) idx 0 + ((vecScatter N E wf).window (ix1 e) 0 : Nat) < (N : Int)
      rw [hs, hw, h1]; omega
    rw [dif_pos hin]
    congr 1
    funext a
    obtain rfl : a = 0 := Subsingleton.elim _ _
    refine Fin.ext ?_
    show ((vecScatter N E wf).start (ix1 e) idx 0 + ((vecScatter N E wf).window (ix1 e) 0 : Nat)).toNat = n.val
    rw [hs, hw, h1]; omega

/-- At the ideal instance the scatter-add of single entries read at `n` is the operand's entry plus the sum, over the
    update entries whose position (read signed, not clamped) is `n`, of the update's entry; an update entry whose
    position is outside `[0, N)` lands nowhere. -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  change x (ix1 n) + _ = _
  congr 1
  rw [Finset.sum_filter, sum_idx1]
  refine Finset.sum_congr rfl fun e _ => ?_
  simp only [vecScatter_resultIdx_eq_some_iff]

end Cert.LibVec

end
-- ==== Proof.RefOut.lean ====
/-
  The reference network's result read at an entry.

  The reference computes, for every node v and output column q,
  (sum over the edges e landing at v of lin2 (hidden) (source e, q) * (d (source e) * d (target e))) + b2 q, where the hidden
  row is the rectified first layer computed the same way from the rows [x u, mean] of 128 entries.  Each step below reads
  one stage of that computation at explicit coordinates: the mean row, the joined row, the two linear layers as sums over
  the contracted coordinate, the edge scale as a product of two gathered degree scales, and each aggregation as the sum
  over the edges whose target column entry is the node.
-/
import proofs.«139473_j72146860638719_2_alg».proof.Proof.RefReadP
import proofs.«139473_j72146860638719_2_alg».proof.Proof.Params
import proofs.«139473_j72146860638719_2_alg».proof.Proof.Net
import proofs.«139473_j72146860638719_2_alg».proof.Proof.LibGatherRows
import proofs.«139473_j72146860638719_2_alg».proof.Proof.LibScatterRows
import proofs.«139473_j72146860638719_2_alg».proof.Proof.LibGatherVec
import proofs.«139473_j72146860638719_2_alg».proof.Proof.LibScatterVec
import proofs.«139473_j72146860638719_2_alg».proof.Proof.LibRank2
import Idealize.ShloMosaic.Lib.ValueIdx
import Idealize.ShloMosaic.PureOps.Ideal.Laws

noncomputable section

namespace Cert.ReferenceIdeal.RefOut

open Cert.ReferenceIdeal Cert.ReferenceIdeal.Gen Cert.ReferenceIdeal.ReadP Idealize.ShloMosaic Idealize.ShloMosaic.ValueIdx
open scoped BigOperators

/-! ## The index columns and the degree scale are computed several times: each copy is the same term -/

section Copies
variable (a1 : (⟨S2x1600000, .i32⟩ : BufTy).Contents (Elt Ideal))

theorem src_copy_41 : val_main_v41 (F := Ideal) a1 = val_main_v26 (F := Ideal) a1 := rfl
theorem src_copy_69 : val_main_v69 (F := Ideal) a1 = val_main_v26 (F := Ideal) a1 := rfl
theorem src_copy_84 : val_main_v84 (F := Ideal) a1 = val_main_v26 (F := Ideal) a1 := rfl
theorem dst_copy_76 : val_main_v76 (F := Ideal) a1 = val_main_v33 (F := Ideal) a1 := rfl
theorem raw_copy_47 : val_main_v47 (F := Ideal) a1 = val_main_v12 (F := Ideal) a1 := rfl
theorem raw_copy_55 : val_main_v55 (F := Ideal) a1 = val_main_v12 (F := Ideal) a1 := rfl
theorem raw_copy_90 : val_main_v90 (F := Ideal) a1 = val_main_v12 (F := Ideal) a1 := rfl
theorem scale_copy_62 : val_main_v62 (F := Ideal) a1 = val_main_v19 (F := Ideal) a1 := rfl
theorem norm_copy_78 : val_main_v78 (F := Ideal) a1 = val_main_v35 (F := Ideal) a1 := rfl

end Copies

/-! ## A row of two halves read at a coordinate -/

/-- A coordinate in the first half reads the first function. -/
theorem addCases_of_lt {m n : ℕ} {α : Type} (f : Fin m → α) (g : Fin n → α) (j : Fin (m + n)) (h : j.val < m) :
    (Fin.addCases f g j : α) = f ⟨j.val, h⟩ :=
  (congrArg (Fin.addCases (motive := fun _ => α) f g) (show j = Fin.castAdd n ⟨j.val, h⟩ from Fin.ext rfl)).trans
    (Fin.addCases_left _)

/-- A coordinate in the second half reads the second function, the first half's length less. -/
theorem addCases_of_ge {m n : ℕ} {α : Type} (f : Fin m → α) (g : Fin n → α) (j : Fin (m + n)) (h : m ≤ j.val) :
    (Fin.addCases f g j : α) = g ⟨j.val - m, by have := j.isLt; omega⟩ :=
  (congrArg (Fin.addCases (motive := fun _ => α) f g)
    (show j = Fin.natAdd m ⟨j.val - m, by have := j.isLt; omega⟩ from Fin.ext (by simp only [Fin.natAdd_mk]; omega))).trans
    (Fin.addCases_right _)

/-! ## The gathers and scatter-adds of the program, read at an entry of abstract operands -/

/-- A gather of single entries of a vector of 100000 at an index column: the entry at the column's row for that edge. -/
theorem gather_vec (dis : (⟨S100000, .f32⟩ : BufTy).Contents (Elt Ideal)) (I : (⟨S1600000x1, .i32⟩ : BufTy).Contents (Elt Ideal))
    (e : Fin 1600000) :
    Host.gather gather_S100000_S1600000x1_S1600000_n_0_n_n_0_1_1 dis I (ix1 e) = Cert.Params.d dis (Cert.Params.row I e) :=
  Cert.LibVec.gather_vec_apply (N := 100000) (by omega) gather_S100000_S1600000x1_S1600000_n_0_n_n_0_1_1.wf dis I e

/-- A gather of whole rows of a 100000 × 64 table at an index column: the row the column names for that edge. -/
theorem gather_rows64 (tbl : (⟨S100000x64, .f32⟩ : BufTy).Contents (Elt Ideal))
    (I : (⟨S1600000x1, .i32⟩ : BufTy).Contents (Elt Ideal)) (e : Fin 1600000) (k : Fin 64) :
    Host.gather gather_S100000x64_S1600000x1_S1600000x64_1_0_n_n_0_1_164 tbl I (ix2 e k) = tbl (ix2 (Cert.Params.row I e) k) :=
  Cert.LibRows.gather_rows_apply (N := 100000) (by omega) gather_S100000x64_S1600000x1_S1600000x64_1_0_n_n_0_1_164.wf tbl I e k

/-- The same for a 100000 × 2 table. -/
theorem gather_rows2 (tbl : (⟨S100000x2, .f32⟩ : BufTy).Contents (Elt Ideal))
    (I : (⟨S1600000x1, .i32⟩ : BufTy).Contents (Elt Ideal)) (e : Fin 1600000) (q : Fin 2) :
    Host.gather gather_S100000x2_S1600000x1_S1600000x2_1_0_n_n_0_1_12 tbl I (ix2 e q) = tbl (ix2 (Cert.Params.row I e) q) :=
  Cert.LibRows.gather_rows_apply (N := 100000) (by omega) gather_S100000x2_S1600000x1_S1600000x2_1_0_n_n_0_1_12.wf tbl I e q

/-- A scatter-add of whole rows into a 100000 × 64 table: the table's entry plus the sum over the edges landing at the node. -/
theorem scatter_rows64 (z : FVec Ideal S100000x64 .f32)
    (I : (⟨S1600000x1, .i32⟩ : BufTy).Contents (Elt Ideal)) (upd : FVec Ideal S1600000x64 .f32)
    (v : Fin 100000) (k : Fin 64) :
    Host.scatterAdd (F := Ideal) (φ := .f32) scatter_S100000x64_S1600000x1_S1600000x64_1_0_0_1 z I upd (ix2 v k)
      = z (ix2 v k) + ∑ e : Fin 1600000, if Cert.Params.hit I e v then upd (ix2 e k) else 0 :=
  (Cert.LibRows.scatterAdd_rows_apply scatter_S100000x64_S1600000x1_S1600000x64_1_0_0_1.wf z I upd v k).trans
    (congrArg (fun t => z (ix2 v k) + t) (Finset.sum_congr rfl fun e _ => if_congr Iff.rfl rfl rfl))

/-- The same for a 100000 × 2 table. -/
theorem scatter_rows2 (z : FVec Ideal S100000x2 .f32)
    (I : (⟨S1600000x1, .i32⟩ : BufTy).Contents (Elt Ideal)) (upd : FVec Ideal S1600000x2 .f32)
    (v : Fin 100000) (q : Fin 2) :
    Host.scatterAdd (F := Ideal) (φ := .f32) scatter_S100000x2_S1600000x1_S1600000x2_1_0_0_1 z I upd (ix2 v q)
      = z (ix2 v q) + ∑ e : Fin 1600000, if Cert.Params.hit I e v then upd (ix2 e q) else 0 :=
  (Cert.LibRows.scatterAdd_rows_apply scatter_S100000x2_S1600000x1_S1600000x2_1_0_0_1.wf z I upd v q).trans
    (congrArg (fun t => z (ix2 v q) + t) (Finset.sum_congr rfl fun e _ => if_congr Iff.rfl rfl rfl))

/-! ## The stages of the first layer at an entry -/

section Stages
variable (a0 : (⟨S100000x64, .f32⟩ : BufTy).Contents (Elt Ideal)) (a1 : (⟨S2x1600000, .i32⟩ : BufTy).Contents (Elt Ideal))
  (a2 : (⟨S128x64, .f32⟩ : BufTy).Contents (Elt Ideal)) (a3 : (⟨S64, .f32⟩ : BufTy).Contents (Elt Ideal))
  (a4 : (⟨S64x2, .f32⟩ : BufTy).Contents (Elt Ideal)) (a5 : (⟨S2, .f32⟩ : BufTy).Contents (Elt Ideal))

/-- The mean row: column j's sum over all nodes (the sum starts from the zero word, which is 0) divided by the float 100000. -/
theorem mean_apply (u : Fin 1) (j : Fin 64) : val_main_v7 (F := Ideal) a0 (ix2 u j) = Cert.Params.μ a0 j := by
  rw [val_main_v7_apply, val_main_v5_apply, val_main_v4_apply, val_main_v6_apply, val_main_cst_0_apply, val_main_cst_apply]
  show Ideal.div (Ideal.ofBits .f32 0x00000000#32 + ∑ k : Fin 100000, a0 (idx_main_v4 (idx_main_v5 (ix2 u j)) k))
    (Ideal.ofBits .f32 0x47C35000#32) = _
  rw [Ideal.ofBits_zero_f32, zero_add]
  unfold Cert.Params.μ
  refine congrArg (fun t => Ideal.div t (Ideal.ofBits .f32 0x47C35000#32)) ?_
  exact Finset.sum_congr rfl fun k _ => congrArg a0 (funext fun a => Fin.ext (by match a with | ⟨0, _⟩ => rfl | ⟨1, _⟩ => rfl))

/-- The mean row repeated at every node. -/
theorem mean_rows_apply (u : Fin 100000) (j : Fin 64) : val_main_v8 (F := Ideal) a0 (ix2 u j) = Cert.Params.μ a0 j := by
  have e : idx_main_v8 (ix2 u j) = ix2 (0 : Fin 1) j :=
    funext fun a => Fin.ext (by match a with | ⟨0, _⟩ => rfl | ⟨1, _⟩ => rfl)
  rw [val_main_v8_apply, e]
  exact mean_apply a0 0 j

/-- The joined row of 128 entries: the node's features, then the mean row. -/
theorem cat_apply (u : Fin 100000) (j : Fin 128) :
    val_main_v9 (F := Ideal) a0 (ix2 u j)
      = (Fin.addCases (m := 64) (n := 64) (Cert.Params.X a0 u) (Cert.Params.μ a0) j : EReal) := by
  unfold val_main_v9
  by_cases h : j.val < 64
  · rw [addCases_of_lt (m := 64) (n := 64) _ _ j h]
    exact Cert.Rank2.concat_cols_left a0 (val_main_v8 (F := Ideal) a0) concatenates_S100000x64_S100000x64_S100000x128_d1
      u j ⟨j.val, h⟩ rfl
  · have hj : j.val < 128 := j.isLt
    rw [addCases_of_ge (m := 64) (n := 64) _ _ j (by omega)]
    refine (Cert.Rank2.concat_cols_right a0 (val_main_v8 (F := Ideal) a0) concatenates_S100000x64_S100000x64_S100000x128_d1
      u j ⟨j.val - 64, by omega⟩ (by show j.val - 64 + 64 = j.val; omega)).trans ?_
    exact mean_rows_apply a0 u _

/-- The first linear layer: the joined row against the 128 × 64 weights. -/
theorem lin1_apply (u : Fin 100000) (k : Fin 64) :
    val_main_v20 (F := Ideal) a0 a2 (ix2 u k)
      = Cert.Net.linR (Cert.Params.X a0) (Cert.Params.Wm a2) (Cert.Params.μ a0) u k := by
  rw [val_main_v20_apply]
  unfold Cert.Net.linR
  refine Finset.sum_congr rfl fun j _ => ?_
  have el : lidx_main_v20 (ix2 u k) j = ix2 u j :=
    funext fun a => Fin.ext (by match a with | ⟨0, _⟩ => rfl | ⟨1, _⟩ => rfl)
  have er : ridx_main_v20 (ix2 u k) j = ix2 j k :=
    funext fun a => Fin.ext (by match a with | ⟨0, _⟩ => rfl | ⟨1, _⟩ => rfl)
  rw [el, er, cat_apply]
  rfl

/-- The scale of an edge: the degree scale read at the row of its source times the one read at the row of its target. -/
theorem norm_apply (e : Fin 1600000) :
    val_main_v35 (F := Ideal) a1 (ix1 e)
      = Cert.Params.d (val_main_v19 (F := Ideal) a1) (Cert.Params.row (val_main_v26 (F := Ideal) a1) e)
        * Cert.Params.d (val_main_v19 (F := Ideal) a1) (Cert.Params.row (val_main_v33 (F := Ideal) a1) e) := by
  rw [val_main_v35_apply]
  unfold val_main_v27 val_main_v34
  rw [gather_vec, gather_vec]
  rfl

/-- The edge scale repeated along the 64 columns. -/
theorem scale64_apply (e : Fin 1600000) (k : Fin 64) :
    val_main_v44 (F := Ideal) a1 (ix2 e k)
      = Cert.Params.d (val_main_v19 (F := Ideal) a1) (Cert.Params.row (val_main_v26 (F := Ideal) a1) e)
        * Cert.Params.d (val_main_v19 (F := Ideal) a1) (Cert.Params.row (val_main_v33 (F := Ideal) a1) e) := by
  have e1 : idx_main_v43 (idx_main_v44 (ix2 e k)) = ix1 e :=
    funext fun a => Fin.ext (by match a with | ⟨0, _⟩ => rfl)
  rw [val_main_v44_apply, val_main_v43_apply, e1]
  exact norm_apply a1 e

/-- The edge scale repeated along the 2 columns (the second layer recomputes the same scale). -/
theorem scale2_apply (e : Fin 1600000) (q : Fin 2) :
    val_main_v87 (F := Ideal) a1 (ix2 e q)
      = Cert.Params.d (val_main_v19 (F := Ideal) a1) (Cert.Params.row (val_main_v26 (F := Ideal) a1) e)
        * Cert.Params.d (val_main_v19 (F := Ideal) a1) (Cert.Params.row (val_main_v33 (F := Ideal) a1) e) := by
  have e1 : idx_main_v86 (idx_main_v87 (ix2 e q)) = ix1 e :=
    funext fun a => Fin.ext (by match a with | ⟨0, _⟩ => rfl)
  rw [val_main_v87_apply, val_main_v86_apply, e1, norm_copy_78]
  exact norm_apply a1 e

/-- The first aggregation: at node v, the sum over the edges landing at v of the source's linear row times the edge scale. -/
theorem agg1_apply (v : Fin 100000) (k : Fin 64) :
    val_main_v48 (F := Ideal) a0 a1 a2 (ix2 v k)
      = Cert.Net.aggR (Cert.Params.d (val_main_v19 (F := Ideal) a1)) (Cert.Params.row (val_main_v26 (F := Ideal) a1))
          (Cert.Params.row (val_main_v33 (F := Ideal) a1)) (Cert.Params.hit (val_main_v12 (F := Ideal) a1))
          (Cert.Net.linR (Cert.Params.X a0) (Cert.Params.Wm a2) (Cert.Params.μ a0)) v k := by
  unfold val_main_v48
  rw [raw_copy_47, scatter_rows64, val_main_v46_apply, val_main_cst_11_apply]
  unfold Cert.Net.aggR
  refine congrArg₂ (fun s t : EReal => s + t) Ideal.ofBits_zero_f32 (Finset.sum_congr rfl fun e _ => if_congr Iff.rfl ?_ rfl)
  rw [val_main_v45_apply]
  unfold val_main_v42
  rw [gather_rows64, src_copy_41, lin1_apply, scale64_apply]
  rfl

/-- The hidden rows: the first aggregation plus the bias, rectified. -/
theorem hid_apply (u : Fin 100000) (k : Fin 64) :
    val_main_v52 (F := Ideal) a0 a1 a2 a3 (ix2 u k)
      = Cert.Net.hidR (Cert.Params.X a0) (Cert.Params.Wm a2) (Cert.Params.B1 a3) (Cert.Params.μ a0)
          (Cert.Params.d (val_main_v19 (F := Ideal) a1)) (Cert.Params.row (val_main_v26 (F := Ideal) a1))
          (Cert.Params.row (val_main_v33 (F := Ideal) a1)) (Cert.Params.hit (val_main_v12 (F := Ideal) a1)) u k := by
  have eb : idx_main_v49 (idx_main_v50 (ix2 u k)) = ix1 k :=
    funext fun a => Fin.ext (by match a with | ⟨0, _⟩ => rfl)
  rw [val_main_v52_apply, val_main_v51_apply, val_main_call1_v0_apply, val_main_call1_cst_apply, val_main_v50_apply,
    val_main_v49_apply, eb, agg1_apply]
  unfold Cert.Net.hidR
  show max (_ + a3 (ix1 k)) (Ideal.ofBits .f32 0x00000000#32) = max (_ + Cert.Params.B1 a3 k) 0
  rw [Ideal.ofBits_zero_f32]
  rfl

/-- The second linear layer of the hidden rows. -/
theorem lin2_apply (u : Fin 100000) (q : Fin 2) :
    val_main_v63 (F := Ideal) a0 a1 a2 a3 a4 (ix2 u q)
      = Cert.Net.lin2 (Cert.Params.Wn a4)
          (Cert.Net.hidR (Cert.Params.X a0) (Cert.Params.Wm a2) (Cert.Params.B1 a3) (Cert.Params.μ a0)
            (Cert.Params.d (val_main_v19 (F := Ideal) a1)) (Cert.Params.row (val_main_v26 (F := Ideal) a1))
            (Cert.Params.row (val_main_v33 (F := Ideal) a1)) (Cert.Params.hit (val_main_v12 (F := Ideal) a1))) u q := by
  rw [val_main_v63_apply]
  unfold Cert.Net.lin2
  refine Finset.sum_congr rfl fun k _ => ?_
  have el : lidx_main_v63 (ix2 u q) k = ix2 u k :=
    funext fun a => Fin.ext (by match a with | ⟨0, _⟩ => rfl | ⟨1, _⟩ => rfl)
  have er : ridx_main_v63 (ix2 u q) k = ix2 k q :=
    funext fun a => Fin.ext (by match a with | ⟨0, _⟩ => rfl | ⟨1, _⟩ => rfl)
  rw [el, er, hid_apply]
  rfl

/-- The second aggregation. -/
theorem agg2_apply (v : Fin 100000) (q : Fin 2) :
    val_main_v91 (F := Ideal) a0 a1 a2 a3 a4 (ix2 v q)
      = Cert.Net.aggR (Cert.Params.d (val_main_v19 (F := Ideal) a1)) (Cert.Params.row (val_main_v26 (F := Ideal) a1))
          (Cert.Params.row (val_main_v33 (F := Ideal) a1)) (Cert.Params.hit (val_main_v12 (F := Ideal) a1))
          (Cert.Net.lin2 (Cert.Params.Wn a4)
            (Cert.Net.hidR (Cert.Params.X a0) (Cert.Params.Wm a2) (Cert.Params.B1 a3) (Cert.Params.μ a0)
              (Cert.Params.d (val_main_v19 (F := Ideal) a1)) (Cert.Params.row (val_main_v26 (F := Ideal) a1))
              (Cert.Params.row (val_main_v33 (F := Ideal) a1)) (Cert.Params.hit (val_main_v12 (F := Ideal) a1)))) v q := by
  unfold val_main_v91
  rw [raw_copy_90, scatter_rows2, val_main_v89_apply, val_main_cst_23_apply]
  unfold Cert.Net.aggR
  refine congrArg₂ (fun s t : EReal => s + t) Ideal.ofBits_zero_f32 (Finset.sum_congr rfl fun e _ => if_congr Iff.rfl ?_ rfl)
  rw [val_main_v88_apply]
  unfold val_main_v85
  rw [gather_rows2, src_copy_84, lin2_apply, scale2_apply]
  rfl

/-- The reference's result at node v and column q. -/
theorem out_apply (v : Fin 100000) (q : Fin 2) :
    val_main_v94 (F := Ideal) a0 a1 a2 a3 a4 a5 (ix2 v q)
      = Cert.Net.outR (Cert.Params.X a0) (Cert.Params.Wm a2) (Cert.Params.B1 a3) (Cert.Params.Wn a4) (Cert.Params.B2 a5)
          (Cert.Params.μ a0) (Cert.Params.d (val_main_v19 (F := Ideal) a1)) (Cert.Params.row (val_main_v26 (F := Ideal) a1))
          (Cert.Params.row (val_main_v33 (F := Ideal) a1)) (Cert.Params.hit (val_main_v12 (F := Ideal) a1)) v q := by
  have eb : idx_main_v92 (idx_main_v93 (ix2 v q)) = ix1 q :=
    funext fun a => Fin.ext (by match a with | ⟨0, _⟩ => rfl)
  rw [val_main_v94_apply, val_main_v93_apply, val_main_v92_apply, eb, agg2_apply]
  unfold Cert.Net.outR
  rfl

end Stages

end Cert.ReferenceIdeal.RefOut

end
-- ==== Proof.RefFacts.lean ====
/-
  Two facts about the reference's degree scale and its destination column, for every edge list.

  The degree scale of a node is the reciprocal square root of `max deg 1` where the node's degree `deg` is positive, and
  `0` elsewhere.  Whatever extended real the degree is, `max deg 1` is at least 1, and the reciprocal square root of an
  extended real that is at least 1 is a real number that is not negative (of `+∞` it is `0`).  So every degree scale
  is a nonnegative extended real other than `+∞`.

  The destination column holds 32-bit words.  A scatter-add lands edge `e` at node `v` when the raw word read signed is
  `v`.  A gather reads the row given by the normalized word (the raw word plus 100000 when it is negative read signed,
  the raw word otherwise), read signed and clamped into `[0, 99999]`.  When the raw word read signed is a node number it
  is not negative, so the normalization keeps it, and it is below 100000, so the clamp keeps it: the gather reads row `v`.
-/
import proofs.«139473_j72146860638719_2_alg».proof.Proof.RefReadP
import proofs.«139473_j72146860638719_2_alg».proof.Proof.Params
import Idealize.ShloMosaic.Lib.IdealHost

noncomputable section

open Idealize.ShloMosaic Idealize.ShloMosaic.ValueIdx

namespace Cert.ReferenceIdeal.RefFacts

open Cert.ReferenceIdeal Cert.ReferenceIdeal.ReadP

/-! ## The degree scale is a nonnegative extended real other than `+∞` -/

/-- The reciprocal square root of an extended real that is at least 1: of a real `r ≥ 1` it is the real
    `1 / sqrt r ≥ 0`; of `+∞` it is `0`; and `-∞` is not at least 1. -/
theorem rsqrt_of_one_le (x : EReal) (hx : 1 ≤ x) : 0 ≤ Ideal.rsqrt x ∧ Ideal.rsqrt x ≠ ⊤ := by
  induction x using EReal.rec with
  | bot => exact absurd (le_bot_iff.mp hx) (by exact_mod_cast EReal.coe_ne_bot 1)
  | coe r =>
    have hr : (1 : ℝ) ≤ r := by exact_mod_cast hx
    rw [Ideal.rsqrt_coe, if_neg (not_lt.mpr (le_trans zero_le_one hr)), if_neg (ne_of_gt (lt_of_lt_of_le zero_lt_one hr))]
    exact ⟨EReal.coe_nonneg.mpr (inv_nonneg.mpr (Real.sqrt_nonneg r)), EReal.coe_ne_top _⟩
  | top =>
    rw [Ideal.rsqrt_top]
    exact ⟨le_refl _, EReal.zero_ne_top⟩

/-- The scale as a function of the degree: where the condition bit is set, the reciprocal square root of
    `max deg 1`, and `0` elsewhere.  Either way a nonnegative extended real other than `+∞`. -/
theorem scale_real (c : BitVec 1) (deg one zero : EReal) (h1 : one = 1) (h0 : zero = 0) :
    0 ≤ Scalar.select c (Ideal.rsqrt (max deg one)) zero ∧ Scalar.select c (Ideal.rsqrt (max deg one)) zero ≠ ⊤ := by
  subst h1 h0
  unfold Scalar.select
  split
  · exact rsqrt_of_one_le _ (le_max_right _ _)
  · exact ⟨le_refl _, EReal.zero_ne_top⟩

/-- Every node's degree scale is a nonnegative extended real other than `+∞`: it is the scale above of the node's
    degree, the word for 1 and the zero word. -/
theorem dis_real (a1 : (⟨S2x1600000, .i32⟩ : BufTy).Contents (Elt Ideal)) (v : Fin 100000) :
    0 ≤ Cert.Params.d (ReadP.val_main_v19 (F := Ideal) a1) v ∧ Cert.Params.d (ReadP.val_main_v19 (F := Ideal) a1) v ≠ ⊤ := by
  have e1 : (val_main_v16 (F := Ideal) (ix1 v) : EReal) = 1 := by
    rw [val_main_v16_apply]
    exact Ideal.ofBits_one_f32
  have e0 : (val_main_call0_v1 (F := Ideal) (ix1 v) : EReal) = 0 := by
    rw [val_main_call0_v1_apply]
    exact Ideal.ofBits_zero_f32
  unfold Cert.Params.d
  rw [val_main_v19_apply, val_main_v18_apply, val_main_v17_apply, Ideal.hostUnary_rsqrt_def, Ideal.maximumf_def]
  exact scale_real (val_main_v15 (F := Ideal) a1 (ix1 v)) (val_main_v13 (F := Ideal) a1 (ix1 v))
    (val_main_v16 (F := Ideal) (ix1 v)) (val_main_call0_v1 (F := Ideal) (ix1 v)) e1 e0

/-! ## An edge that lands at node `v` gathers row `v` -/

/-- On words: if `w` read signed is a number `n` below 100000 that is not negative, then the normalized word — `w`
    plus 100000 when `w` is negative read signed, `w` otherwise — read signed and clamped into `[0, 99999]` is `n`. -/
theorem normalized_word (w : BitVec 32) (n : ℕ) (hn : n < 100000) (hw : w.toInt = (n : Int)) :
    min (Scalar.select (IntOp.cmpi .slt w 0#32) (IntOp.addi w 100000#32) w).toInt.toNat (100000 - 1) = n := by
  have hslt : w.slt 0#32 = false := by
    rw [BitVec.slt_eq_decide]
    simp only [BitVec.toInt_zero, decide_eq_false_iff_not, not_lt]
    omega
  have hc : IntOp.cmpi .slt w 0#32 = 0#1 := by
    unfold IntOp.cmpi
    simp only [hslt]
    rfl
  rw [hc]
  unfold Scalar.select
  rw [if_neg (by decide)]
  rw [hw]
  omega

/-- If edge `e`'s raw destination word read signed is node `v`, the row the normalized column makes a gather read
    for `e` is `v`.  Both columns read, at `(e, 0)`, entry `e` of the destination row of the edge list. -/
theorem hit_row (a1 : (⟨S2x1600000, .i32⟩ : BufTy).Contents (Elt Ideal)) (e : Fin 1600000) (v : Fin 100000) :
    Cert.Params.hit (ReadP.val_main_v12 (F := Ideal) a1) e v → Cert.Params.row (ReadP.val_main_v33 (F := Ideal) a1) e = v := by
  intro h
  have hk : idx_main_v33 (ix2 e (0 : Fin 1)) = idx_main_v12 (ix2 e (0 : Fin 1)) :=
    funext fun a => match a with | ⟨0, _⟩ => rfl
  have h' : (val_main_v3 (F := Ideal) a1 (idx_main_v12 (ix2 e (0 : Fin 1)))).toInt = (v.val : Int) := by
    have := h
    unfold Cert.Params.hit at this
    rwa [val_main_v12_apply] at this
  apply Fin.ext
  show min (val_main_v33 (F := Ideal) a1 (ix2 e (0 : Fin 1))).toInt.toNat (100000 - 1) = v.val
  rw [val_main_v33_apply, hk]
  show min (Scalar.select (IntOp.cmpi .slt (val_main_v3 (F := Ideal) a1 (idx_main_v12 (ix2 e (0 : Fin 1)))) (val_main_v28 (F := Ideal) (idx_main_v12 (ix2 e (0 : Fin 1)))))
      (IntOp.addi (val_main_v3 (F := Ideal) a1 (idx_main_v12 (ix2 e (0 : Fin 1)))) (val_main_v30 (F := Ideal) (idx_main_v12 (ix2 e (0 : Fin 1)))))
      (val_main_v3 (F := Ideal) a1 (idx_main_v12 (ix2 e (0 : Fin 1))))).toInt.toNat (100000 - 1) = v.val
  rw [val_main_v28_apply, val_main_v30_apply]
  exact normalized_word _ v.val v.isLt h'

end Cert.ReferenceIdeal.RefFacts

end
-- ==== Proof.Same.lean ====
/-
  The two programs compute the degree scale and the two index columns by the same host operations.

  Each program has its own names for the shapes and for the operations' dimension records, and the names denote the same
  shapes and the same records.  So, operation by operation from the edge list up, the kernel program's terms are the
  reference's stages: the source and destination rows of the edge list, the column a scatter-add takes (the destination
  row as a column), the column a gather takes (the source row, a negative entry moved up by the number of nodes, as a
  column), the in-degree (ones added up by destination), and the degree scale (the reciprocal square root of
  `max deg 1` where the degree is positive, zero elsewhere).
-/
import proofs.«139473_j72146860638719_2_alg».proof.Proof.KernelTerms
import proofs.«139473_j72146860638719_2_alg».proof.Proof.RefReadP

noncomputable section

open Idealize.ShloMosaic

namespace Cert.Same

/-- The edge list: two rows of 1600000 32-bit words. -/
abbrev Edges : Type := IVec ⟨2, ![2, 1600000]⟩ 32

/-- The source row of the edge list. -/
theorem src_eq (a1 : Edges) :
    Cert.KernelIdeal.Terms.srcOf a1 = Cert.ReferenceIdeal.ReadP.val_main_v1 (F := Ideal) a1 := rfl

/-- The destination row of the edge list. -/
theorem dst_eq (a1 : Edges) :
    Cert.KernelIdeal.Terms.dstOf a1 = Cert.ReferenceIdeal.ReadP.val_main_v3 (F := Ideal) a1 := rfl

/-- The column a scatter-add takes: the destination row as a column. -/
theorem scatterCol_eq (a1 : Edges) :
    Cert.KernelIdeal.Terms.scatterCol (Cert.KernelIdeal.Terms.dstOf a1) = Cert.ReferenceIdeal.ReadP.val_main_v12 (F := Ideal) a1 := rfl

/-- The column a gather takes: the source row, a negative entry moved up by the number of nodes, as a column. -/
theorem gatherCol_eq (a1 : Edges) :
    Cert.KernelIdeal.Terms.gatherCol (Cert.KernelIdeal.Terms.srcOf a1) = Cert.ReferenceIdeal.ReadP.val_main_v26 (F := Ideal) a1 := rfl

/-- The in-degree of every node: ones added up by destination. -/
theorem deg_eq (a1 : Edges) :
    Cert.KernelIdeal.Terms.degOf a1 = Cert.ReferenceIdeal.ReadP.val_main_v13 (F := Ideal) a1 := rfl

/-- The degree scale. -/
theorem dis_eq (a1 : Edges) :
    Cert.KernelIdeal.Terms.disOf a1 = Cert.ReferenceIdeal.ReadP.val_main_v19 (F := Ideal) a1 := rfl

end Cert.Same

end
-- ==== Proof.Bridge.lean ====
/-
  The two programs' result terms are one function of the argument arrays.  Entry `(v, q)` of the kernel's result is the
  network in the kernel's arrangement (rows scaled by the degree scale before the edges are summed, the sums scaled
  after), entry `(v, q)` of the reference's result the network in the reference's arrangement (each message scaled on
  its edge by the scales of both ends); the degree scale and the index columns are the same terms in both programs; and
  the two arrangements agree because the degree scale is a nonnegative real and an edge that lands at `v` reads the
  scale of its end at row `v`.
-/
import proofs.«139473_j72146860638719_2_alg».proof.Proof.KernelOut
import proofs.«139473_j72146860638719_2_alg».proof.Proof.RefOut
import proofs.«139473_j72146860638719_2_alg».proof.Proof.RefFacts
import proofs.«139473_j72146860638719_2_alg».proof.Proof.Same

noncomputable section

namespace Cert.Bridge

open Idealize.ShloMosaic Idealize.ShloMosaic.ValueIdx
open Cert.ReferenceIdeal Cert.KernelIdeal

theorem result_eq (x0 : FVec Ideal ⟨2, ![100000, 64]⟩ .f32) (x1 : IVec ⟨2, ![2, 1600000]⟩ 32) (x2 : FVec Ideal ⟨2, ![128, 64]⟩ .f32)
    (x3 : FVec Ideal ⟨1, ![64]⟩ .f32) (x4 : FVec Ideal ⟨2, ![64, 2]⟩ .f32) (x5 : FVec Ideal ⟨1, ![2]⟩ .f32) :
    (ReadP.val_main_v94 (F := Ideal) x0 x1 x2 x3 x4 x5 : (⟨2, ![100000, 2]⟩ : Shape).Idx → EReal)
      = Terms.outOf x0 x1 x2 x3 x4 x5 := by
  funext i
  obtain ⟨v, q, rfl⟩ : ∃ (v : Fin 100000) (q : Fin 2), i = ix2 v q := ⟨i 0, i 1, eq_ix2 i⟩
  rw [RefOut.out_apply, KOut.out_apply, Cert.Same.dis_eq, Cert.Same.gatherCol_eq, Cert.Same.scatterCol_eq]
  exact (Cert.Net.outK_eq_outR _ _ _ _ _ _ _ _ _ _ (RefFacts.dis_real x1) (RefFacts.hit_row x1) v q).symm

end Cert.Bridge

end
-- ==== Proof.lean ====
/-
  The certificate of the graph network: a mean pool and two graph-convolution layers with a rectifier between, as four
  kernels among host operations, against the plain array program.

  The three frames: each program runs — terminates, nothing faulting — and leaves its argument arrays as launched.  The
  kernel program's two frames are the generated ones; the reference's is its run with the result dropped.

  The idealization rewrote no operation, so the kernel program read at the exact values is its own text.

  The equivalence at the exact values.  The kernel program's run leaves its result buffer at what the last region's
  write-backs leave; boundary by boundary that is a pure term of the argument arrays: the column sums of the features
  (region 0), the first linear layer with the mean row folded into a bias row and every row scaled by the degree scale
  (region 1), those rows gathered by source and added up by destination (host), the sums scaled, biased, rectified, put
  through the second layer and scaled again (region 2), gathered and added up again (host), scaled and biased (region 3).
  The reference's run leaves the plain program's term.  Entry by entry both are the same network over nodes and edges,
  in two arrangements that agree because the degree scale is a nonnegative real: it goes through the sum over the edges
  that land at a node.
-/
import proofs.«139473_j72146860638719_2_alg».proof.Defs
import proofs.«139473_j72146860638719_2_alg».proof.Proof.Gen.Kernel
import proofs.«139473_j72146860638719_2_alg».proof.Proof.Gen.Kernel.Skeleton
import proofs.«139473_j72146860638719_2_alg».proof.Proof.Gen.Kernel.Launch
import proofs.«139473_j72146860638719_2_alg».proof.Proof.Gen.Kernel.Points
import proofs.«139473_j72146860638719_2_alg».proof.Proof.Gen.Kernel.Frame
import proofs.«139473_j72146860638719_2_alg».proof.Proof.Gen.KernelIdeal
import proofs.«139473_j72146860638719_2_alg».proof.Proof.Gen.KernelIdeal.Skeleton
import proofs.«139473_j72146860638719_2_alg».proof.Proof.Gen.KernelIdeal.Launch
import proofs.«139473_j72146860638719_2_alg».proof.Proof.Gen.KernelIdeal.Points
import proofs.«139473_j72146860638719_2_alg».proof.Proof.Gen.KernelIdeal.Frame
import proofs.«139473_j72146860638719_2_alg».proof.Proof.Gen.ReferenceIdeal
import proofs.«139473_j72146860638719_2_alg».proof.Proof.Gen.Pre_finite_inputs
import proofs.«139473_j72146860638719_2_alg».proof.Proof.RefReadP
import proofs.«139473_j72146860638719_2_alg».proof.Proof.KernelRun
import proofs.«139473_j72146860638719_2_alg».proof.Proof.KernelChain
import proofs.«139473_j72146860638719_2_alg».proof.Proof.Bridge
import Idealize.ShloMosaic.Adequacy
import Idealize.ShloMosaic.Init

noncomputable section

namespace Cert.Proof

open Idealize.ShloMosaic Idealize.SL.Sem

/-- The kernel program as printed runs and leaves its arguments. -/
theorem frame_kernel : Cert.frame_Kernel := fun m ρ _ => Cert.Kernel.Gen.frame m ρ

/-- The kernel program at the exact values runs and leaves its arguments. -/
theorem frame_kernelIdeal : Cert.frame_KernelIdeal := fun m ρ _ => Cert.KernelIdeal.Gen.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten. -/
theorem preserves : Cert.preserves_Kernel_KernelIdeal := trivial

/-- From memories that agree on the arguments both programs end with the network's value: the kernel program's result
    buffer at its pure term of the arguments, the reference's at its own term, and the two terms are one function. -/
theorem algebraic : Cert.algebraic_KernelIdeal_ReferenceIdeal := by
  intro m ρ m' ρ' _ hagree
  refine ⟨fun c => Cert.KernelIdeal.Terms.outOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.W10_v46 m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v94_eq, (hagree c).1, (hagree c).2.1, (hagree c).2.2.1, (hagree c).2.2.2.1,
      (hagree c).2.2.2.2.1, (hagree c).2.2.2.2.2]
    exact Cert.Bridge.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
